-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x64 : Shape := ⟨3, ![8, 4, 64]⟩
abbrev S1048576x64 : Shape := ⟨2, ![1048576, 64]⟩
abbrev S1048576 : Shape := ⟨1, ![1048576]⟩
abbrev S_ : Shape := ⟨0, ![]⟩

class Facts : Prop where
  bcast_S_S8x4x64 : S_.BroadcastsInDim S8x4x64 (![] : Fin 0 → Fin S8x4x64.rank)
  reducesTo_S8x4x64_S_d0_1_2 : S8x4x64.ReducesTo [0, 1, 2] S_
  h_S_ : 0 < S_.numel
  bcast_S_S1048576x64 : S_.BroadcastsInDim S1048576x64 (![] : Fin 0 → Fin S1048576x64.rank)
  reducesTo_S1048576x64_S_d0_1 : S1048576x64.ReducesTo [0, 1] S_
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S8x4x64 .f32) (main_arg1 : FVec F S1048576x64 .f32) (main_arg2 : FVec F S1048576 .f32) : IVec S_ 1 :=
  let main_v0 : FVec F S8x4x64 .f32 := Host.absf main_arg0
  let main_cst : FVec F S_ .f32 := constant S_ .f32 0x7F800000#32
  let main_v1 : FVec F S8x4x64 .f32 := broadcastInDim S8x4x64 ![] bcast_S_S8x4x64 main_cst
  let main_v2 : IVec S8x4x64 1 := cmpf .olt main_v0 main_v1
  let main_c : IVec S_ 1 := constantI S_ 1 1#1
  let main_v3 : IVec S_ 1 := (fun x v => Host.reduce IntOp.andi x v reducesTo_S8x4x64_S_d0_1_2 h_S_) main_v2 main_c
  let main_v4 : FVec F S1048576x64 .f32 := Host.absf main_arg1
  let main_cst_0 : FVec F S_ .f32 := constant S_ .f32 0x7F800000#32
  let main_v5 : FVec F S1048576x64 .f32 := broadcastInDim S1048576x64 ![] bcast_S_S1048576x64 main_cst_0
  let main_v6 : IVec S1048576x64 1 := cmpf .olt main_v4 main_v5
  let main_c_1 : IVec S_ 1 := constantI S_ 1 1#1
  let main_v7 : IVec S_ 1 := (fun x v => Host.reduce IntOp.andi x v reducesTo_S1048576x64_S_d0_1 h_S_) main_v6 main_c_1
  let main_v8 : IVec S_ 1 := andi main_v3 main_v7
  let main_v9 : FVec F S1048576 .f32 := Host.absf main_arg2
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  main_v13
-- ==== Kernel.lean ====
abbrev S8x4x64 : Shape := ⟨3, ![8, 4, 64]⟩
abbrev S1048576x64 : Shape := ⟨2, ![1048576, 64]⟩
abbrev S1048576 : Shape := ⟨1, ![1048576]⟩
abbrev S32x64 : Shape := ⟨2, ![32, 64]⟩
abbrev S256x1x4096 : Shape := ⟨3, ![256, 1, 4096]⟩
abbrev S4096x64 : Shape := ⟨2, ![4096, 64]⟩
abbrev S1x1x4096 : Shape := ⟨3, ![1, 1, 4096]⟩
abbrev S1x32 : Shape := ⟨2, ![1, 32]⟩
abbrev S32 : Shape := ⟨1, ![32]⟩
abbrev S32x1 : Shape := ⟨2, ![32, 1]⟩
abbrev S64x1 : Shape := ⟨2, ![64, 1]⟩
abbrev S4096x1 : Shape := ⟨2, ![4096, 1]⟩
abbrev S1x4096 : Shape := ⟨2, ![1, 4096]⟩
abbrev S4096x32 : Shape := ⟨2, ![4096, 32]⟩

abbrev nBuf : Space → Nat
  | .hbm => 7
  | .vmem => 8
  | .smem => 0
  | _ => 0

abbrev bufTy : (tb : Table) → Fin (tcTables nBuf tb) → BufTy
  | .hbm, ⟨0, _⟩ => ⟨S8x4x64, .f32⟩
  | .hbm, ⟨1, _⟩ => ⟨S1048576x64, .f32⟩
  | .hbm, ⟨2, _⟩ => ⟨S1048576, .f32⟩
  | .hbm, ⟨3, _⟩ => ⟨S32x64, .f32⟩
  | .hbm, ⟨4, _⟩ => ⟨S256x1x4096, .f32⟩
  | .hbm, ⟨5, _⟩ => ⟨S32x64, .f32⟩
  | .hbm, ⟨6, _⟩ => ⟨S8x4x64, .f32⟩
  | .local _ .vmem, ⟨0, _⟩ => ⟨S32x64, .f32⟩
  | .local _ .vmem, ⟨1, _⟩ => ⟨S4096x64, .f32⟩
  | .local _ .vmem, ⟨2, _⟩ => ⟨S4096x64, .f32⟩
  | .local _ .vmem, ⟨3, _⟩ => ⟨S1x1x4096, .f32⟩
  | .local _ .vmem, ⟨4, _⟩ => ⟨S1x1x4096, .f32⟩
  | .local _ .vmem, ⟨5, _⟩ => ⟨S32x64, .f32⟩
  | .local _ .vmem, ⟨6, _⟩ => ⟨S1x32, .f32⟩
  | .local _ .vmem, ⟨7, _⟩ => ⟨S32x64, .f32⟩
  | _, _ => ⟨S8x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v45 : BitVec 1 := Scalar.cmpi .eq arg0 c255_i32
  let v46 : BitVec 32 := Scalar.extui v45
  let c0_i32_24 : BitVec 32 := 0#32
  let v47 : BitVec 1 := Scalar.cmpi .ne v46 c0_i32_24
  v47

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S8x4x64_S32x64 : S8x4x64.ShapeCasts S32x64
  shapeCasts_S1048576_S256x1x4096 : S1048576.ShapeCasts S256x1x4096
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  reduces_S32x64_S32 : S32x64.Reduces [1] S32
  shapeCasts_S32_S32x1 : S32.ShapeCasts S32x1
  broadcasts_S32x1_S32x64 : S32x1.Broadcasts S32x64
  inb_S4096x64_S4096x64_0_0 : ∀ a, (![0, 0] : Fin 2 → Nat) a + S4096x64.size a ≤ S4096x64.size a
  h_S4096x64 : 0 < S4096x64.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  transposes_S1x4096_p1_0_S4096x1 : S1x4096.Transposes [1, 0] S4096x1
  broadcasts_S4096x1_S4096x32 : S4096x1.Broadcasts S4096x32
  reduces_S4096x32_S32 : S4096x32.Reduces [0] S32
  shapeCasts_S32_S1x32 : S32.ShapeCasts S1x32
  transposes_S1x32_p1_0_S32x1 : S1x32.Transposes [1, 0] S32x1
  shapeCasts_S32x64_S8x4x64 : S32x64.ShapeCasts S8x4x64
  dot_S4096x64_S64x1_S4096x1_1_0_0_1_n_n_wf : DotDims.WF S4096x64 S64x1 S4096x1 [1] [0] [0] [1] [] []
  dot_S4096x64_S32x64_S4096x32_1_1_0_0_n_n_wf : DotDims.WF S4096x64 S32x64 S4096x32 [1] [1] [0] [0] [] []
  dot_S4096x32_S4096x64_S32x64_0_0_1_1_n_n_wf : DotDims.WF S4096x32 S4096x64 S32x64 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x64.size a ≤ S32x64.size a
  hwx0_0 : ∀ i : grid0.Coords, EltTy.bits .f32 = 32 ∨ (Rect.block (s := S32x64) S32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S1048576x64.size a
  hwx0_1 : ∀ i : grid0.Coords, EltTy.bits .f32 = 32 ∨ (Rect.block (s := S1048576x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S256x1x4096.size a
  hwx0_2 : ∀ i : grid0.Coords, EltTy.bits .f32 = 32 ∨ (Rect.block (s := S256x1x4096) S1x1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)

variable [Facts₀]

def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S4096x64_S32x64_S4096x32_1_1_0_0_n_n : DotDims S4096x64 S32x64 S4096x32 where
  lhsContracting := [1]
  rhsContracting := [1]
  lhsNonContracting := [0]
  rhsNonContracting := [0]
  lhsBatch := []
  rhsBatch := []
  wf := dot_S4096x64_S32x64_S4096x32_1_1_0_0_n_n_wf
def dot_S4096x32_S4096x64_S32x64_0_0_1_1_n_n : DotDims S4096x32 S4096x64 S32x64 where
  lhsContracting := [0]
  rhsContracting := [0]
  lhsNonContracting := [1]
  rhsNonContracting := [1]
  lhsBatch := []
  rhsBatch := []
  wf := dot_S4096x32_S4096x64_S32x64_0_0_1_1_n_n_wf

abbrev win0_0 : Pipeline.Window sig grid0 :=
  Pipeline.Window.ofSpec (Memref.whole main_v0) S32x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4x64 : Shape := ⟨3, ![8, 4, 64]⟩
abbrev S1048576x64 : Shape := ⟨2, ![1048576, 64]⟩
abbrev S1048576 : Shape := ⟨1, ![1048576]⟩
abbrev S_ : Shape := ⟨0, ![]⟩
abbrev S8x4 : Shape := ⟨2, ![8, 4]⟩
abbrev S8x4x1 : Shape := ⟨3, ![8, 4, 1]⟩
abbrev S1048576x1 : Shape := ⟨2, ![1048576, 1]⟩
abbrev S8x4x1048576 : Shape := ⟨3, ![8, 4, 1048576]⟩
abbrev S1x1x1048576 : Shape := ⟨3, ![1, 1, 1048576]⟩

abbrev nBuf : Space → Nat
  | .hbm => 42
  | .vmem => 0
  | .smem => 0
  | _ => 0

abbrev bufTy : (tb : Table) → Fin (tcTables nBuf tb) → BufTy
  | .hbm, ⟨0, _⟩ => ⟨S8x4x64, .f32⟩
  | .hbm, ⟨1, _⟩ => ⟨S1048576x64, .f32⟩
  | .hbm, ⟨2, _⟩ => ⟨S1048576, .f32⟩
  | .hbm, ⟨3, _⟩ => ⟨S8x4x64, .f32⟩
  | .hbm, ⟨4, _⟩ => ⟨S_, .f32⟩
  | .hbm, ⟨5, _⟩ => ⟨S8x4, .f32⟩
  | .hbm, ⟨6, _⟩ => ⟨S8x4x1, .f32⟩
  | .hbm, ⟨7, _⟩ => ⟨S8x4x1, .f32⟩
  | .hbm, ⟨8, _⟩ => ⟨S_, .f32⟩
  | .hbm, ⟨9, _⟩ => ⟨S8x4x1, .f32⟩
  | .hbm, ⟨10, _⟩ => ⟨S8x4x1, .f32⟩
  | .hbm, ⟨11, _⟩ => ⟨S8x4x64, .f32⟩
  | .hbm, ⟨12, _⟩ => ⟨S8x4x64, .f32⟩
  | .hbm, ⟨13, _⟩ => ⟨S1048576x64, .f32⟩
  | .hbm, ⟨14, _⟩ => ⟨S_, .f32⟩
  | .hbm, ⟨15, _⟩ => ⟨S1048576, .f32⟩
  | .hbm, ⟨16, _⟩ => ⟨S1048576x1, .f32⟩
  | .hbm, ⟨17, _⟩ => ⟨S1048576x1, .f32⟩
  | .hbm, ⟨18, _⟩ => ⟨S_, .f32⟩
  | .hbm, ⟨19, _⟩ => ⟨S1048576x1, .f32⟩
  | .hbm, ⟨20, _⟩ => ⟨S1048576x1, .f32⟩
  | .hbm, ⟨21, _⟩ => ⟨S1048576x64, .f32⟩
  | .hbm, ⟨22, _⟩ => ⟨S1048576x64, .f32⟩
  | .hbm, ⟨23, _⟩ => ⟨S8x4x1048576, .f32⟩
  | .hbm, ⟨24, _⟩ => ⟨S1x1x1048576, .f32⟩
  | .hbm, ⟨25, _⟩ => ⟨S8x4x1048576, .f32⟩
  | .hbm, ⟨26, _⟩ => ⟨S8x4x1048576, .f32⟩
  | .hbm, ⟨27, _⟩ => ⟨S_, .f32⟩
  | .hbm, ⟨28, _⟩ => ⟨S8x4, .f32⟩
  | .hbm, ⟨29, _⟩ => ⟨S_, .f32⟩
  | .hbm, ⟨30, _⟩ => ⟨S8x4, .f32⟩
  | .hbm, ⟨31, _⟩ => ⟨S8x4, .f32⟩
  | .hbm, ⟨32, _⟩ => ⟨S8x4x1, .f32⟩
  | .hbm, ⟨33, _⟩ => ⟨S8x4x1048576, .f32⟩
  | .hbm, ⟨34, _⟩ => ⟨S8x4x1048576, .f32⟩
  | .hbm, ⟨35, _⟩ => ⟨S8x4x1048576, .f32⟩
  | .hbm, ⟨36, _⟩ => ⟨S_, .f32⟩
  | .hbm, ⟨37, _⟩ => ⟨S8x4, .f32⟩
  | .hbm, ⟨38, _⟩ => ⟨S8x4x1, .f32⟩
  | .hbm, ⟨39, _⟩ => ⟨S8x4x1048576, .f32⟩
  | .hbm, ⟨40, _⟩ => ⟨S8x4x1048576, .f32⟩
  | .hbm, ⟨41, _⟩ => ⟨S8x4x64, .f32⟩
  | _, _ => ⟨S8x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  reducesTo_S8x4x64_S8x4_d2 : S8x4x64.ReducesTo [2] S8x4
  h_S_ : 0 < S_.numel
  bcast_S8x4_S8x4x1_0_1 : S8x4.BroadcastsInDim S8x4x1 (![0, 1] : Fin 2 → Fin S8x4x1.rank)
  bcast_S_S8x4x1 : S_.BroadcastsInDim S8x4x1 (![] : Fin 0 → Fin S8x4x1.rank)
  bcast_S8x4x1_S8x4x64_0_1_2 : S8x4x1.BroadcastsInDim S8x4x64 (![0, 1, 2] : Fin 3 → Fin S8x4x64.rank)
  reducesTo_S1048576x64_S1048576_d1 : S1048576x64.ReducesTo [1] S1048576
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x64_0_1 : S1048576x1.BroadcastsInDim S1048576x64 (![0, 1] : Fin 2 → Fin S1048576x64.rank)
  bcast_S1048576_S1x1x1048576_2 : S1048576.BroadcastsInDim S1x1x1048576 (![2] : Fin 1 → Fin S1x1x1048576.rank)
  bcast_S1x1x1048576_S8x4x1048576_0_1_2 : S1x1x1048576.BroadcastsInDim S8x4x1048576 (![0, 1, 2] : Fin 3 → Fin S8x4x1048576.rank)
  reducesTo_S8x4x1048576_S8x4_d2 : S8x4x1048576.ReducesTo [2] S8x4
  bcast_S_S8x4 : S_.BroadcastsInDim S8x4 (![] : Fin 0 → Fin S8x4.rank)
  bcast_S8x4x1_S8x4x1048576_0_1_2 : S8x4x1.BroadcastsInDim S8x4x1048576 (![0, 1, 2] : Fin 3 → Fin S8x4x1048576.rank)
  dot_S8x4x64_S1048576x64_S8x4x1048576_2_1_01_0_n_n_wf : DotDims.WF S8x4x64 S1048576x64 S8x4x1048576 [2] [1] [0, 1] [0] [] []
  dot_S8x4x1048576_S1048576x64_S8x4x64_2_0_01_1_n_n_wf : DotDims.WF S8x4x1048576 S1048576x64 S8x4x64 [2] [0] [0, 1] [1] [] []

variable [Facts₀]

def dot_S8x4x64_S1048576x64_S8x4x1048576_2_1_01_0_n_n : DotDims S8x4x64 S1048576x64 S8x4x1048576 where
  lhsContracting := [2]
  rhsContracting := [1]
  lhsNonContracting := [0, 1]
  rhsNonContracting := [0]
  lhsBatch := []
  rhsBatch := []
  wf := dot_S8x4x64_S1048576x64_S8x4x1048576_2_1_01_0_n_n_wf
def dot_S8x4x1048576_S1048576x64_S8x4x64_2_0_01_1_n_n : DotDims S8x4x1048576 S1048576x64 S8x4x64 where
  lhsContracting := [2]
  rhsContracting := [0]
  lhsNonContracting := [0, 1]
  rhsNonContracting := [1]
  lhsBatch := []
  rhsBatch := []
  wf := dot_S8x4x1048576_S1048576x64_S8x4x64_2_0_01_1_n_n_wf

class Facts : Prop extends Facts₀ where

variable [Facts]
-- ==== Proof.KPieces.lean ====
import proofs.«169957_g74457553044435_cont_9to1_m_1141_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Kv

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case leaves in the two accumulators and in the output block

At the first grid point the body stores zeros into both accumulators and reads them back; at every point it adds
the block's column sums of the weights to the first accumulator and the block's weighted row sums to the second;
at the last point it also stores their quotient into the output block. -/

theorem sA0 (c : Dev nD) (i : grid0.Coords) (a1 : Memref sig .tc .vmem S32x64 .f32) (h1 : a1.IsWhole) (a2 : Memref sig .tc .vmem S4096x64 .f32) (h2 : a2.IsWhole) (a3 : Memref sig .tc .vmem S1x1x4096 .f32) (h3 : a3.IsWhole) (a4 : Memref sig .tc .vmem S32x64 .f32) (h4 : a4.IsWhole) (a5 : Memref sig .tc .vmem S1x32 .f32) (h5 : a5.IsWhole) (a6 : Memref sig .tc .vmem S32x64 .f32) (h6 : a6.IsWhole) (hc0 : cond0_0 i) (hc1 : ¬cond0_1 i)
    (x0 : Vec F S32x64 .f32) (x1 : Vec F S4096x64 .f32) (x2 : Vec F S1x1x4096 .f32)  :
    sout0_A_0 c i a1 h1 a2 h2 a3 h3 a4 h4 a5 h5 a6 h6 hc0 hc1 x0 x1 x2 = k0_pay1 (k0_pay7 x0 x1 x2 k0_pay4) := by
  unfold sout0_A_0
  rw [View.read_writes_eq_canon _ _ _ (scover0_A_0 c i a1 h1 a2 h2 a3 h3 a4 h4 a5 h5 a6 h6 hc0 hc1 x0 x1 x2)]
  unfold kernelRun0_A
  dsimp only
  sl_unfold_words
  rw [View.canon_cons_unit_zero (S := S1x32) hz2, View.readCov_unit_zero (S := S1x32) _ hz2]
  simp only [View.readAt_eq_ld, h1.read_unread, h2.read_unread, h3.read_unread, h5.read_unread, h6.read_unread,
    View.ld_unit_zero (S := S32x64) hz2, View.ld_unit_zero (S := S4096x64) hz2, View.ld_unit_zero (S := S1x1x4096) hz3,
    View.ld_unit_zero (S := S1x32) hz2]

theorem sA1 (c : Dev nD) (i : grid0.Coords) (a1 : Memref sig .tc .vmem S32x64 .f32) (h1 : a1.IsWhole) (a2 : Memref sig .tc .vmem S4096x64 .f32) (h2 : a2.IsWhole) (a3 : Memref sig .tc .vmem S1x1x4096 .f32) (h3 : a3.IsWhole) (a4 : Memref sig .tc .vmem S32x64 .f32) (h4 : a4.IsWhole) (a5 : Memref sig .tc .vmem S1x32 .f32) (h5 : a5.IsWhole) (a6 : Memref sig .tc .vmem S32x64 .f32) (h6 : a6.IsWhole) (hc0 : cond0_0 i) (hc1 : ¬cond0_1 i)
    (x0 : Vec F S32x64 .f32) (x1 : Vec F S4096x64 .f32) (x2 : Vec F S1x1x4096 .f32)  :
    sout0_A_1 c i a1 h1 a2 h2 a3 h3 a4 h4 a5 h5 a6 h6 hc0 hc1 x0 x1 x2 = k0_pay2 x1 (k0_pay6 x0 x1 x2) k0_pay5 := by
  unfold sout0_A_1
  rw [View.read_writes_eq_canon _ _ _ (scover0_A_1 c i a1 h1 a2 h2 a3 h3 a4 h4 a5 h5 a6 h6 hc0 hc1 x0 x1 x2)]
  unfold kernelRun0_A
  dsimp only
  sl_unfold_words
  rw [View.canon_cons_unit_zero (S := S32x64) hz2, View.readCov_unit_zero (S := S32x64) _ hz2]
  simp only [View.readAt_eq_ld, h1.read_unread, h2.read_unread, h3.read_unread, h5.read_unread, h6.read_unread,
    View.ld_unit_zero (S := S32x64) hz2, View.ld_unit_zero (S := S4096x64) hz2, View.ld_unit_zero (S := S1x1x4096) hz3,
    View.ld_unit_zero (S := S1x32) hz2]

theorem sB0 (c : Dev nD) (i : grid0.Coords) (a1 : Memref sig .tc .vmem S32x64 .f32) (h1 : a1.IsWhole) (a2 : Memref sig .tc .vmem S4096x64 .f32) (h2 : a2.IsWhole) (a3 : Memref sig .tc .vmem S1x1x4096 .f32) (h3 : a3.IsWhole) (a4 : Memref sig .tc .vmem S32x64 .f32) (h4 : a4.IsWhole) (a5 : Memref sig .tc .vmem S1x32 .f32) (h5 : a5.IsWhole) (a6 : Memref sig .tc .vmem S32x64 .f32) (h6 : a6.IsWhole) (hc0 : ¬cond0_0 i) (hc1 : ¬cond0_1 i)
    (x0 : Vec F S32x64 .f32) (x1 : Vec F S4096x64 .f32) (x2 : Vec F S1x1x4096 .f32) (xs0 : Vec F S1x32 .f32) (xs1 : Vec F S32x64 .f32) :
    sout0_B_0 c i a1 h1 a2 h2 a3 h3 a4 h4 a5 h5 a6 h6 hc0 hc1 x0 x1 x2 xs0 xs1 = k0_pay1 (k0_pay7 x0 x1 x2 xs0) := by
  unfold sout0_B_0
  rw [View.read_writes_eq_canon _ _ _ (scover0_B_0 c i a1 h1 a2 h2 a3 h3 a4 h4 a5 h5 a6 h6 hc0 hc1 x0 x1 x2 xs0 xs1)]
  unfold kernelRun0_B
  dsimp only
  sl_unfold_words
  rw [View.canon_unit_zero hz2]
  simp only [View.readAt_eq_ld, h1.read_unread, h2.read_unread, h3.read_unread, h5.read_unread, h6.read_unread,
    View.ld_unit_zero (S := S32x64) hz2, View.ld_unit_zero (S := S4096x64) hz2, View.ld_unit_zero (S := S1x1x4096) hz3,
    View.ld_unit_zero (S := S1x32) hz2]

theorem sB1 (c : Dev nD) (i : grid0.Coords) (a1 : Memref sig .tc .vmem S32x64 .f32) (h1 : a1.IsWhole) (a2 : Memref sig .tc .vmem S4096x64 .f32) (h2 : a2.IsWhole) (a3 : Memref sig .tc .vmem S1x1x4096 .f32) (h3 : a3.IsWhole) (a4 : Memref sig .tc .vmem S32x64 .f32) (h4 : a4.IsWhole) (a5 : Memref sig .tc .vmem S1x32 .f32) (h5 : a5.IsWhole) (a6 : Memref sig .tc .vmem S32x64 .f32) (h6 : a6.IsWhole) (hc0 : ¬cond0_0 i) (hc1 : ¬cond0_1 i)
    (x0 : Vec F S32x64 .f32) (x1 : Vec F S4096x64 .f32) (x2 : Vec F S1x1x4096 .f32) (xs0 : Vec F S1x32 .f32) (xs1 : Vec F S32x64 .f32) :
    sout0_B_1 c i a1 h1 a2 h2 a3 h3 a4 h4 a5 h5 a6 h6 hc0 hc1 x0 x1 x2 xs0 xs1 = k0_pay2 x1 (k0_pay6 x0 x1 x2) xs1 := by
  unfold sout0_B_1
  rw [View.read_writes_eq_canon _ _ _ (scover0_B_1 c i a1 h1 a2 h2 a3 h3 a4 h4 a5 h5 a6 h6 hc0 hc1 x0 x1 x2 xs0 xs1)]
  unfold kernelRun0_B
  dsimp only
  sl_unfold_words
  rw [View.canon_unit_zero hz2]
  simp only [View.readAt_eq_ld, h1.read_unread, h2.read_unread, h3.read_unread, h5.read_unread, h6.read_unread,
    View.ld_unit_zero (S := S32x64) hz2, View.ld_unit_zero (S := S4096x64) hz2, View.ld_unit_zero (S := S1x1x4096) hz3,
    View.ld_unit_zero (S := S1x32) hz2]

theorem sC0 (c : Dev nD) (i : grid0.Coords) (a1 : Memref sig .tc .vmem S32x64 .f32) (h1 : a1.IsWhole) (a2 : Memref sig .tc .vmem S4096x64 .f32) (h2 : a2.IsWhole) (a3 : Memref sig .tc .vmem S1x1x4096 .f32) (h3 : a3.IsWhole) (a4 : Memref sig .tc .vmem S32x64 .f32) (h4 : a4.IsWhole) (a5 : Memref sig .tc .vmem S1x32 .f32) (h5 : a5.IsWhole) (a6 : Memref sig .tc .vmem S32x64 .f32) (h6 : a6.IsWhole) (hc0 : ¬cond0_0 i) (hc1 : cond0_1 i)
    (x0 : Vec F S32x64 .f32) (x1 : Vec F S4096x64 .f32) (x2 : Vec F S1x1x4096 .f32) (xs0 : Vec F S1x32 .f32) (xs1 : Vec F S32x64 .f32) :
    sout0_C_0 c i a1 h1 a2 h2 a3 h3 a4 h4 a5 h5 a6 h6 hc0 hc1 x0 x1 x2 xs0 xs1 = k0_pay1 (k0_pay7 x0 x1 x2 xs0) := by
  unfold sout0_C_0
  rw [View.read_writes_eq_canon _ _ _ (scover0_C_0 c i a1 h1 a2 h2 a3 h3 a4 h4 a5 h5 a6 h6 hc0 hc1 x0 x1 x2 xs0 xs1)]
  unfold kernelRun0_C
  dsimp only
  sl_unfold_words
  rw [View.canon_unit_zero hz2]
  simp only [View.readAt_eq_ld, h1.read_unread, h2.read_unread, h3.read_unread, h5.read_unread, h6.read_unread,
    View.ld_unit_zero (S := S32x64) hz2, View.ld_unit_zero (S := S4096x64) hz2, View.ld_unit_zero (S := S1x1x4096) hz3,
    View.ld_unit_zero (S := S1x32) hz2]

theorem sC1 (c : Dev nD) (i : grid0.Coords) (a1 : Memref sig .tc .vmem S32x64 .f32) (h1 : a1.IsWhole) (a2 : Memref sig .tc .vmem S4096x64 .f32) (h2 : a2.IsWhole) (a3 : Memref sig .tc .vmem S1x1x4096 .f32) (h3 : a3.IsWhole) (a4 : Memref sig .tc .vmem S32x64 .f32) (h4 : a4.IsWhole) (a5 : Memref sig .tc .vmem S1x32 .f32) (h5 : a5.IsWhole) (a6 : Memref sig .tc .vmem S32x64 .f32) (h6 : a6.IsWhole) (hc0 : ¬cond0_0 i) (hc1 : cond0_1 i)
    (x0 : Vec F S32x64 .f32) (x1 : Vec F S4096x64 .f32) (x2 : Vec F S1x1x4096 .f32) (xs0 : Vec F S1x32 .f32) (xs1 : Vec F S32x64 .f32) :
    sout0_C_1 c i a1 h1 a2 h2 a3 h3 a4 h4 a5 h5 a6 h6 hc0 hc1 x0 x1 x2 xs0 xs1 = k0_pay2 x1 (k0_pay6 x0 x1 x2) xs1 := by
  unfold sout0_C_1
  rw [View.read_writes_eq_canon _ _ _ (scover0_C_1 c i a1 h1 a2 h2 a3 h3 a4 h4 a5 h5 a6 h6 hc0 hc1 x0 x1 x2 xs0 xs1)]
  unfold kernelRun0_C
  dsimp only
  sl_unfold_words
  rw [View.canon_unit_zero hz2]
  simp only [View.readAt_eq_ld, h1.read_unread, h2.read_unread, h3.read_unread, h5.read_unread, h6.read_unread,
    View.ld_unit_zero (S := S32x64) hz2, View.ld_unit_zero (S := S4096x64) hz2, View.ld_unit_zero (S := S1x1x4096) hz3,
    View.ld_unit_zero (S := S1x32) hz2]

theorem oC3 (c : Dev nD) (i : grid0.Coords) (a1 : Memref sig .tc .vmem S32x64 .f32) (h1 : a1.IsWhole) (a2 : Memref sig .tc .vmem S4096x64 .f32) (h2 : a2.IsWhole) (a3 : Memref sig .tc .vmem S1x1x4096 .f32) (h3 : a3.IsWhole) (a4 : Memref sig .tc .vmem S32x64 .f32) (h4 : a4.IsWhole) (a5 : Memref sig .tc .vmem S1x32 .f32) (h5 : a5.IsWhole) (a6 : Memref sig .tc .vmem S32x64 .f32) (h6 : a6.IsWhole) (hc0 : ¬cond0_0 i) (hc1 : cond0_1 i)
    (x0 : Vec F S32x64 .f32) (x1 : Vec F S4096x64 .f32) (x2 : Vec F S1x1x4096 .f32) (xs0 : Vec F S1x32 .f32) (xs1 : Vec F S32x64 .f32) :
    out0_C_3 c i a1 h1 a2 h2 a3 h3 a4 h4 a5 h5 a6 h6 hc0 hc1 x0 x1 x2 xs0 xs1 = k0_pay3 (k0_pay2 x1 (k0_pay6 x0 x1 x2) xs1) (k0_pay1 (k0_pay7 x0 x1 x2 xs0)) := by
  unfold out0_C_3
  rw [View.read_writes_eq_canon _ _ _ (cover0_C_3 c i a1 h1 a2 h2 a3 h3 a4 h4 a5 h5 a6 h6 hc0 hc1 x0 x1 x2 xs0 xs1)]
  unfold kernelRun0_C
  dsimp only
  sl_unfold_words
  rw [View.canon_unit_zero hz2]
  simp only [View.readCov_unit_zero (S := S32x64) _ hz2, View.readCov_unit_zero (S := S1x32) _ hz2, View.readAt_eq_ld,
    h1.read_unread, h2.read_unread, h3.read_unread, h5.read_unread, h6.read_unread,
    View.ld_unit_zero (S := S32x64) hz2, View.ld_unit_zero (S := S4096x64) hz2, View.ld_unit_zero (S := S1x1x4096) hz3,
    View.ld_unit_zero (S := S1x32) hz2]

end Cert.KernelIdeal.Kv
end
-- ==== Proof.KChain.lean ====
import proofs.«169957_g74457553044435_cont_9to1_m_1141_2_alg».proof.Proof.KPieces

set_option maxRecDepth 16384

noncomputable section

open Idealize.ShloMosaic Idealize.ShloMosaic.TcCoe Idealize.SL.Sem
open Idealize.ShloMosaic.Pipeline (Dat)

namespace Cert.KernelIdeal.Kv

open Cert.KernelIdeal Cert.KernelIdeal.Gen

variable {F : FTy → Type} [FloatOps F]
variable (m : (ℓ : Loc nD τ sig) → Buf (Elt F) ℓ)

/-! ## The two accumulators point by point

After grid point n the first accumulator holds the running column sums of the weights of blocks 0..n and the second
the running weighted sums of the memory rows of blocks 0..n, each started from the zeros stored at point 0. -/

/-- The weight-sum accumulator after point n. -/
def accS (c : Dev nD) : (n : ℕ) → n < cfg0.N → Vec F S1x32 .f32
  | 0, h => k0_pay1 (k0_pay7 (iblk m c 0 ⟨0, h⟩) (iblk m c 1 ⟨0, h⟩) (iblk m c 2 ⟨0, h⟩) k0_pay4)
  | n + 1, h => k0_pay1 (k0_pay7 (iblk m c 0 ⟨n + 1, h⟩) (iblk m c 1 ⟨n + 1, h⟩) (iblk m c 2 ⟨n + 1, h⟩) (accS c n (Nat.lt_of_succ_lt h)))

/-- The weighted-sum accumulator after point n. -/
def accA (c : Dev nD) : (n : ℕ) → n < cfg0.N → Vec F S32x64 .f32
  | 0, h => k0_pay2 (iblk m c 1 ⟨0, h⟩) (k0_pay6 (iblk m c 0 ⟨0, h⟩) (iblk m c 1 ⟨0, h⟩) (iblk m c 2 ⟨0, h⟩)) k0_pay5
  | n + 1, h => k0_pay2 (iblk m c 1 ⟨n + 1, h⟩) (k0_pay6 (iblk m c 0 ⟨n + 1, h⟩) (iblk m c 1 ⟨n + 1, h⟩) (iblk m c 2 ⟨n + 1, h⟩)) (accA c n (Nat.lt_of_succ_lt h))

/-- What the two scratch buffers hold after point n is the two running accumulators. -/
theorem outsAt_scr (c : Dev nD) : ∀ (n : ℕ) (h : n < cfg0.N),
    (outsAt0 m c n h).2.1 = accS m c n h ∧ (outsAt0 m c n h).2.2 = accA m c n h
  | 0, h => by
    rw [outsAt0_A m c ⟨0, h⟩ rfl (by dsimp only; omega)]
    dsimp only
    exact ⟨sA0 (F := F) .., sA1 (F := F) ..⟩
  | n + 1, h => by
    have hN : cfg0.N = 256 := N_0
    have hB : ¬(⟨n + 1, h⟩ : Fin cfg0.N).val % 256 = 0 := by dsimp only; omega
    obtain ⟨ihS, ihA⟩ := outsAt_scr c n (Nat.lt_of_succ_lt h)
    by_cases h1 : (⟨n + 1, h⟩ : Fin cfg0.N).val % 256 = 255
    · rw [outsAt0_C m c ⟨n + 1, h⟩ hB h1]
      dsimp only
      constructor
      · refine (sC0 (F := F) ..).trans ?_
        show k0_pay1 (k0_pay7 _ _ _ (outsAt0 m c n _).2.1) = k0_pay1 (k0_pay7 _ _ _ (accS m c n _))
        rw [ihS]
      · refine (sC1 (F := F) ..).trans ?_
        show k0_pay2 _ _ (outsAt0 m c n _).2.2 = k0_pay2 _ _ (accA m c n _)
        rw [ihA]
    · rw [outsAt0_B m c ⟨n + 1, h⟩ hB h1]
      dsimp only
      constructor
      · refine (sB0 (F := F) ..).trans ?_
        show k0_pay1 (k0_pay7 _ _ _ (outsAt0 m c n _).2.1) = k0_pay1 (k0_pay7 _ _ _ (accS m c n _))
        rw [ihS]
      · refine (sB1 (F := F) ..).trans ?_
        show k0_pay2 _ _ (outsAt0 m c n _).2.2 = k0_pay2 _ _ (accA m c n _)
        rw [ihA]

/-- At the last point the output block holds the quotient of the two accumulators. -/
theorem outsAt_last (c : Dev nD) (n : ℕ) (h : n + 1 < cfg0.N) (h1 : (n + 1) % 256 = 255) :
    (outsAt0 m c (n + 1) h).1 = k0_pay3 (accA m c (n + 1) h) (accS m c (n + 1) h) := by
  have hN : cfg0.N = 256 := N_0
  have hB : ¬(⟨n + 1, h⟩ : Fin cfg0.N).val % 256 = 0 := by dsimp only; omega
  obtain ⟨ihS, ihA⟩ := outsAt_scr m c n (Nat.lt_of_succ_lt h)
  rw [outsAt0_C m c ⟨n + 1, h⟩ hB h1]
  dsimp only
  refine (oC3 (F := F) ..).trans ?_
  show k0_pay3 (k0_pay2 _ _ (outsAt0 m c n _).2.2) (k0_pay1 (k0_pay7 _ _ _ (outsAt0 m c n _).2.1)) = k0_pay3 (k0_pay2 _ _ (accA m c n _)) (k0_pay1 (k0_pay7 _ _ _ (accS m c n _)))
  rw [ihS, ihA]

end Cert.KernelIdeal.Kv
end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.KBlocks.lean ====
import proofs.«169957_g74457553044435_cont_9to1_m_1141_2_alg».proof.Proof.KChain
import proofs.«169957_g74457553044435_cont_9to1_m_1141_2_alg».proof.Proof.LibLayout
import Idealize.ShloMosaic.Lib.ValueLayout
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Kv

open Cert.KernelIdeal Cert.KernelIdeal.Gen

open Idealize.ShloMosaic.ValueIdx

variable {F : FTy → Type} [FloatOps F]
variable (m : (ℓ : Loc nD τ sig) → Buf (Elt F) ℓ)

/-! ## The input blocks as entries of the argument arrays

The query window's one block is the whole [32, 64] regrouping of the [8, 4, 64] query array (row r = 4·s + u); block
k of the memory window is rows 4096·k .. 4096·k + 4095 of the memory; block k of the strength window is entries
4096·k .. of the strength vector, regrouped as [256, 1, 4096]. -/

/-- The block indices of the three input windows, decided once over the grid. -/
theorem idx_in : ∀ t : Fin cfg0.N, (win0_0.index t 0 = 0 ∧ win0_0.index t 1 = 0)
      ∧ (win0_1.index t 0 = t.val ∧ win0_1.index t 1 = 0)
      ∧ (win0_2.index t 0 = t.val ∧ win0_2.index t 1 = 0 ∧ win0_2.index t 2 = 0) :=
  (by decide +kernel : ∀ t : Fin grid0.N, (win0_0.index t 0 = 0 ∧ win0_0.index t 1 = 0)
      ∧ (win0_1.index t 0 = t.val ∧ win0_1.index t 1 = 0)
      ∧ (win0_2.index t 0 = t.val ∧ win0_2.index t 1 = 0 ∧ win0_2.index t 2 = 0))

/-- The regrouped query array the region finds. -/
theorem V_v0 (c : Dev nD) : (V m c main_v0 : S32x64.Idx → Elt F .f32)
    = shapeCast S32x64 (m ((c : Thread nD τ).loc main_arg0)) shapeCasts_S8x4x64_S32x64 := by
  show StableHlo.after hostOps0 (fun b => m (c, b)) (Proc.devRef .tc main_v0) = _
  after_results
  rfl

/-- The regrouped strength array the region finds. -/
theorem V_v1 (c : Dev nD) : (V m c main_v1 : S256x1x4096.Idx → Elt F .f32)
    = shapeCast S256x1x4096 (m ((c : Thread nD τ).loc main_arg2)) shapeCasts_S1048576_S256x1x4096 := by
  show StableHlo.after hostOps0 (fun b => m (c, b)) (Proc.devRef .tc main_v1) = _
  after_results
  rfl

theorem qrow_lt (s : Fin 8) (u : Fin 4) : 4 * s.val + u.val < 32 := by
  have := s.isLt; have := u.isLt; omega

/-- The query block is the regrouped query array, at every point. -/
theorem iblk0_apply (c : Dev nD) (t : Fin cfg0.N) (b : Fin 32) (d : Fin 64) :
    (iblk m c 0 t : Vec F S32x64 .f32) (ix2 b d) = V m c main_v0 (ix2 b d) := by
  unfold iblk
  rw [View.read_apply]
  show V m c main_v0 _ = _
  refine congrArg _ (funext fun a => Fin.ext ?_)
  match a with
  | ⟨0, _⟩ => show win0_0.index t 0 * 32 + 1 * b.val = b.val; rw [(idx_in t).1.1]; omega
  | ⟨1, _⟩ => show win0_0.index t 1 * 64 + 1 * d.val = d.val; rw [(idx_in t).1.2]; omega

/-- Row 4·s + u of the regrouped query array is row (s, u) of the query array. -/
theorem V_v0_apply (c : Dev nD) (s : Fin 8) (u : Fin 4) (d : Fin 64) :
    V m c main_v0 (ix2 ⟨4 * s.val + u.val, qrow_lt s u⟩ d) = m ((c : Thread nD τ).loc main_arg0) (ix3 s u d) := by
  rw [V_v0]
  exact Cert.LibLayout.shapeCast_abc_dc_apply _ _ ⟨4 * s.val + u.val, qrow_lt s u⟩ d s u (by show 4 * s.val + u.val = s.val * 4 + u.val; omega)

/-- The memory block at point t, at (p, d), is the memory at row 4096·t + p. -/
theorem iblk1_apply (c : Dev nD) (t : Fin cfg0.N) (p : Fin 4096) (d : Fin 64) (hlt : t.val * 4096 + p.val < 1048576) :
    (iblk m c 1 t : Vec F S4096x64 .f32) (ix2 p d) = m ((c : Thread nD τ).loc main_arg1) (ix2 ⟨t.val * 4096 + p.val, hlt⟩ d) := by
  unfold iblk
  rw [View.read_apply]
  show V m c main_arg1 _ = _
  rw [V_main_arg1]
  refine congrArg _ (funext fun a => Fin.ext ?_)
  match a with
  | ⟨0, _⟩ => show win0_1.index t 0 * 4096 + 1 * p.val = t.val * 4096 + p.val; rw [(idx_in t).2.1.1]; omega
  | ⟨1, _⟩ => show win0_1.index t 1 * 64 + 1 * d.val = d.val; rw [(idx_in t).2.1.2]; omega

/-- The strength vector regrouped as [256, 1, 4096] reads, at (k, 0, p), entry 4096·k + p. -/
theorem strength_regroup {α : Type} (x : S1048576.Idx → α) (k : Fin 256) (z : Fin 1) (p : Fin 4096) (hlt : k.val * 4096 + p.val < 1048576) :
    shapeCast S256x1x4096 x shapeCasts_S1048576_S256x1x4096 (ix3 k z p) = x (ix1 ⟨k.val * 4096 + p.val, hlt⟩) :=
  shapeCast_apply x _ _ _ (by
    have hz : z.val = 0 := by omega
    rw [Shape.rowMajor_val_one, Shape.rowMajor_val_three]
    show k.val * 4096 + p.val = (k.val * 1 + z.val) * 4096 + p.val
    rw [hz]; omega)

/-- The strength block at point t, at (0, 0, p), is the strength of row 4096·t + p. -/
theorem iblk2_apply (c : Dev nD) (t : Fin cfg0.N) (p : Fin 4096) (hlt : t.val * 4096 + p.val < 1048576) :
    (iblk m c 2 t : Vec F S1x1x4096 .f32) (ix3 (0 : Fin 1) (0 : Fin 1) p) = m ((c : Thread nD τ).loc main_arg2) (ix1 ⟨t.val * 4096 + p.val, hlt⟩) := by
  have hN : cfg0.N = 256 := N_0
  unfold iblk
  rw [View.read_apply]
  show V m c main_v1 _ = _
  rw [V_v1]
  refine Eq.trans (congrArg _ (funext fun a => Fin.ext ?_)) (strength_regroup _ ⟨t.val, by have := t.isLt; omega⟩ (0 : Fin 1) p hlt)
  match a with
  | ⟨0, _⟩ => show win0_2.index t 0 * 1 + 1 * 0 = t.val; rw [(idx_in t).2.2.1]; omega
  | ⟨1, _⟩ => show win0_2.index t 1 * 1 + 1 * 0 = 0; rw [(idx_in t).2.2.2.1]
  | ⟨2, _⟩ => show win0_2.index t 2 * 4096 + 1 * p.val = p.val; rw [(idx_in t).2.2.2.2]; omega

end Cert.KernelIdeal.Kv
end
-- ==== Proof.LibSoftmaxAverage.lean ====
/-
  The softmax-weighted average of one row, in two spellings, on the extended reals; generic in the row width n.

  For scores  sc : Fin n → EReal  the row maximum is the fold of `max` from -∞ over the row, the weights are
  exp (sc j - rowMax),  and the weighted average of values  w : Fin n → EReal  is written either as the weighted
  sum divided by the total weight (`avgK`: a kernel that accumulates and divides once) or as the sum of the
  normalised weights times the values (`avgR`: softmax first, then the product).  On real scores and real values
  (`IsReal`, closed under +, -, *, finite sums) they are the same real number (`avgR_eq_avgK`, `avgK_isReal`):
  every weight is a positive real, so the total is a nonzero real and division by it is multiplication by its
  inverse, which distributes over the finite sum.  Also: the coercion of a finite real sum (`coe_sum`), the words
  of -1e9, 1, 1/32, 1024 and -∞ as extended reals, and division by √1024 as multiplication by 1/32.
-/
import Idealize.ShloMosaic.PureOps.Ideal.Laws
import Idealize.ShloMosaic.Lib.ValueIdx

noncomputable section

namespace Cert.Attn

open Idealize.ShloMosaic Idealize.ShloMosaic.ValueIdx

/-! ## Real numbers inside the extended reals -/

/-- The coercion of a finite sum of reals is the sum of the coercions. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- An extended real that is a real number. -/
def IsReal (x : EReal) : Prop := ∃ r : ℝ, x = (r : EReal)

theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} (S : Finset ι) (f : ι → EReal) (hf : ∀ i, IsReal (f i)) : IsReal (∑ i ∈ S, f i) := by
  choose g hg using hf
  exact ⟨∑ i ∈ S, g i, by rw [coe_sum]; exact Finset.sum_congr rfl fun i _ => hg i⟩

/-! ## The constants -/

/-- The word of `-1e9` denotes that real number. -/
theorem ofBits_neg1e9 : Ideal.ofBits .f32 0xCE6E6B28#32 = ((-1000000000 : ℝ) : EReal) := by
  simp [Ideal.ofBits, Ideal.ieee, -EReal.coe_mul]; norm_num
/-- The word of `1.0`. -/
theorem ofBits_one : Ideal.ofBits .f32 0x3F800000#32 = ((1 : ℝ) : EReal) := by
  simp [Ideal.ofBits, Ideal.ieee, -EReal.coe_mul]; norm_num
/-- The word of `0.03125` denotes 1/32. -/
theorem ofBits_inv32 : Ideal.ofBits .f32 0x3D000000#32 = ((1 / 32 : ℝ) : EReal) := by
  simp [Ideal.ofBits, Ideal.ieee, -EReal.coe_mul]; norm_num
/-- The word of `1024.0`. -/
theorem ofBits_1024 : Ideal.ofBits .f32 0x44800000#32 = ((1024 : ℝ) : EReal) := by
  simp [Ideal.ofBits, Ideal.ieee, -EReal.coe_mul]; norm_num
/-- The word `0xFF800000` is -∞. -/
theorem ofBits_negInf : Ideal.ofBits .f32 0xFF800000#32 = ⊥ := by
  simp [Ideal.ofBits, Ideal.ieee]

/-- Dividing by the square root of 1024 is multiplying by 1/32, on every extended real: √1024 = 32. -/
theorem div_sqrt1024 (x : EReal) :
    Ideal.div x (Ideal.sqrt (Ideal.ofBits .f32 0x44800000#32)) = x * Ideal.ofBits .f32 0x3D000000#32 := by
  have h32 : Real.sqrt 1024 = 32 := by
    rw [show (1024 : ℝ) = 32 ^ 2 by norm_num]; exact Real.sqrt_sq (by norm_num)
  rw [ofBits_1024, ofBits_inv32, Ideal.sqrt_coe, if_neg (by norm_num), h32]
  exact Ideal.div_coe (by norm_num) x

/-! ## One query row -/

/-- The row maximum: the fold of `max` from -∞ over the keys. -/
def rowMax {n : ℕ} (sc : Fin n → EReal) : EReal := (Finset.univ : Finset (Fin n)).fold max ⊥ sc

/-- The weight of key `j`. -/
def wt {n : ℕ} (sc : Fin n → EReal) (j : Fin n) : EReal := Ideal.exp (sc j - rowMax sc)

/-- The weighted sum of the values divided by the total weight. -/
def avgK {n : ℕ} (sc w : Fin n → EReal) : EReal := Ideal.div (∑ j, wt sc j * w j) (∑ j, wt sc j)

/-- The sum of the normalised weights times the values. -/
def avgR {n : ℕ} (sc w : Fin n → EReal) : EReal := ∑ j, Ideal.div (wt sc j) (∑ j', wt sc j') * w j

/-- Over real scores the row maximum is one of the scores. -/
theorem rowMax_coe {n : ℕ} (hn : 0 < n) (s : Fin n → ℝ) : ∃ j0, rowMax (fun j => (s j : EReal)) = (s j0 : EReal) := by
  obtain ⟨j0, -, hj0⟩ := Finset.exists_mem_eq_sup (Finset.univ : Finset (Fin n)) ⟨⟨0, hn⟩, Finset.mem_univ _⟩
    (fun j => (s j : EReal))
  exact ⟨j0, hj0⟩

/-- On real scores and real values the two spellings of the weighted average agree. -/
theorem avgR_eq_avgK {n : ℕ} (hn : 0 < n) (sc w : Fin n → EReal) (hs : ∀ j, IsReal (sc j)) (hw : ∀ j, IsReal (w j)) :
    avgR sc w = avgK sc w := by
  choose s hs using hs
  choose u hu using hw
  obtain rfl : sc = fun j => (s j : EReal) := funext hs
  obtain rfl : w = fun j => (u j : EReal) := funext hu
  obtain ⟨j0, hM⟩ := rowMax_coe hn s
  have hwt : ∀ j, wt (fun j => (s j : EReal)) j = ((Real.exp (s j - s j0) : ℝ) : EReal) := fun j => by
    unfold wt; rw [hM, ← EReal.coe_sub, Ideal.exp_coe]
  have hl : (∑ j, Real.exp (s j - s j0)) ≠ 0 :=
    ne_of_gt (Finset.sum_pos (fun j _ => Real.exp_pos _) ⟨⟨0, hn⟩, Finset.mem_univ _⟩)
  unfold avgR avgK
  simp only [hwt]
  rw [← coe_sum, Ideal.div_coe hl]
  simp only [Ideal.div_coe hl, ← EReal.coe_mul]
  rw [← coe_sum, ← coe_sum, ← EReal.coe_mul, Finset.sum_mul]
  exact congrArg _ (Finset.sum_congr rfl fun j _ => by ring)

/-- A weighted average of real values over real scores is real. -/
theorem avgK_isReal {n : ℕ} (hn : 0 < n) (sc w : Fin n → EReal) (hs : ∀ j, IsReal (sc j)) (hw : ∀ j, IsReal (w j)) :
    IsReal (avgK sc w) := by
  choose s hs using hs
  choose u hu using hw
  obtain rfl : sc = fun j => (s j : EReal) := funext hs
  obtain rfl : w = fun j => (u j : EReal) := funext hu
  obtain ⟨j0, hM⟩ := rowMax_coe hn s
  have hwt : ∀ j, wt (fun j => (s j : EReal)) j = ((Real.exp (s j - s j0) : ℝ) : EReal) := fun j => by
    unfold wt; rw [hM, ← EReal.coe_sub, Ideal.exp_coe]
  have hl : (∑ j, Real.exp (s j - s j0)) ≠ 0 :=
    ne_of_gt (Finset.sum_pos (fun j _ => Real.exp_pos _) ⟨⟨0, hn⟩, Finset.mem_univ _⟩)
  unfold avgK
  simp only [hwt]
  rw [← coe_sum, Ideal.div_coe hl]
  simp only [← EReal.coe_mul]
  rw [← coe_sum, ← EReal.coe_mul]
  exact ⟨_, rfl⟩

end Cert.Attn

end
-- ==== Proof.Spec.lean ====
/-
  One query row read against a memory bank, in two spellings, on the extended reals.

  A query row  x : Fin D → EReal,  memory rows  mem : Fin N → Fin D → EReal  and one strength per row
  st : Fin N → EReal.  Both spellings compute the softmax over the N rows of the scaled cosine similarity of x
  with every memory row and return the softmax-weighted average of the memory rows, column d.

  * the streaming spelling (`outK`): the query is scaled once by  1 / max(‖x‖, ε),  every memory row gets the
    factor  st j · (1 / max(‖mem j‖, ε))  (its squared norm written as a product with a column of ones), the
    logit is  (Σ_d mem j d · xscaled d) · factor j,  the weights are the plain exponentials (no shift by the
    row maximum), and the result is  (Σ_j w j · mem j d) / (Σ_j w j);
  * the textbook spelling (`outR`): x / max(‖x‖, ε)  and  mem j / max(‖mem j‖, ε)  entry by entry, their inner
    product times st j as the logit, then the softmax with the row maximum subtracted, normalised weight by
    weight, times the values (`Cert.Attn.avgR`).
-/
import proofs.«169957_g74457553044435_cont_9to1_m_1141_2_alg».proof.Proof.LibSoftmaxAverage

noncomputable section

namespace Cert.MemRead

open Idealize.ShloMosaic Cert.Attn

/-- The norm floor ε: the word both programs print for 1e-12. -/
def eps : EReal := Ideal.ofBits .f32 0x2B8CBCCC#32
/-- The word of 1.0. -/
def w1 : EReal := Ideal.ofBits .f32 0x3F800000#32

variable {N D : ℕ}

/-- Σ_d y d · y d, the squared Euclidean norm of a row. -/
def sumsq (y : Fin D → EReal) : EReal := ∑ d, y d * y d

/-- max(‖y‖, ε). -/
def nrm (y : Fin D → EReal) : EReal := max (Ideal.sqrt (sumsq y)) eps

/-! ## The streaming spelling -/

/-- The query's scale  1 / max(‖x‖, ε). -/
def qsK (x : Fin D → EReal) : EReal := Ideal.div w1 (nrm x)

/-- Memory row j's factor  st j · (1 / max(√(Σ_d (mem j d · mem j d) · 1), ε)). -/
def msK (mem : Fin N → Fin D → EReal) (st : Fin N → EReal) (j : Fin N) : EReal :=
  st j * Ideal.div w1 (max (Ideal.sqrt (∑ d, mem j d * mem j d * w1)) eps)

/-- The logit of memory row j. -/
def logitK (x : Fin D → EReal) (mem : Fin N → Fin D → EReal) (st : Fin N → EReal) (j : Fin N) : EReal :=
  (∑ d, mem j d * (x d * qsK x)) * msK mem st j

/-- The unshifted weight of memory row j. -/
def wK (x : Fin D → EReal) (mem : Fin N → Fin D → EReal) (st : Fin N → EReal) (j : Fin N) : EReal :=
  Ideal.exp (logitK x mem st j)

/-- The weighted sum of column d divided by the total weight. -/
def outK (x : Fin D → EReal) (mem : Fin N → Fin D → EReal) (st : Fin N → EReal) (d : Fin D) : EReal :=
  Ideal.div (∑ j, wK x mem st j * mem j d) (∑ j, wK x mem st j)

/-! ## The textbook spelling -/

/-- The logit of memory row j: the inner product of the two normalised rows, times the strength. -/
def logitR (x : Fin D → EReal) (mem : Fin N → Fin D → EReal) (st : Fin N → EReal) (j : Fin N) : EReal :=
  (∑ d, Ideal.div (x d) (nrm x) * Ideal.div (mem j d) (nrm (mem j))) * st j

/-- Softmax of the logits (row maximum subtracted), weight by weight, times column d of the memory. -/
def outR (x : Fin D → EReal) (mem : Fin N → Fin D → EReal) (st : Fin N → EReal) (d : Fin D) : EReal :=
  avgR (logitR x mem st) (fun j => mem j d)

end Cert.MemRead

end
-- ==== Proof.LibReduceRead.lean ====
/-
  Reductions of a matrix along one axis, read at an index, at the ideal instance and generic in the extents.

  * the sum of an [a, b] matrix along the rows (axis 0) at column e is the sum over the rows of the entries of column e;
  * the sum along the lanes (axis 1) at row r is the sum over the lanes of the entries of row r;
  * the sum, and the maximum started from the bottom element, of an [a, 1] column along its rows: the sum over the
    rows, and the fold of max over the rows.
  Each is the library's reading of a one-axis reduction (the reduced index with the coordinate put back on the dropped
  axis) with that index written by its coordinates.
-/
import Idealize.ShloMosaic.Lib.ValueIdx
import Idealize.ShloMosaic.PureOps.Ideal.Laws

noncomputable section

open scoped BigOperators

namespace Cert.LibReduceRead

open Idealize.ShloMosaic Idealize.ShloMosaic.ValueIdx

/-- Column sums: the sum along the rows, read at column e. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (e : Fin b) :
    multiReduction .add [0] ⟨1, ![b]⟩ X 0x00000000#32 h hφ hacc (ix1 e) = ∑ s : Fin a, X (ix2 s e) := by
  refine (Ideal.multiReduction_add_single X _ h hφ hacc (ix1 e)).trans ?_
  show ∑ s : Fin a, _ = _
  exact Finset.sum_congr rfl fun s _ => congrArg X (funext fun c => Fin.ext (by
    match c with
    | ⟨0, _⟩ => rfl
    | ⟨1, _⟩ => rfl))

/-- Row sums: the sum along the lanes, read at row r. -/
theorem rowSum_apply {a b : ℕ} (X : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ X 0x00000000#32 h hφ hacc (ix1 r) = ∑ k : Fin b, X (ix2 r k) := by
  refine (Ideal.multiReduction_add_single X _ h hφ hacc (ix1 r)).trans ?_
  show ∑ k : Fin b, _ = _
  exact Finset.sum_congr rfl fun k _ => congrArg X (funext fun c => Fin.ext (by
    match c with
    | ⟨0, _⟩ => rfl
    | ⟨1, _⟩ => rfl))

/-- The row index a one-entry result puts back under a column: (s, 0). -/
theorem lift_col {a : ℕ} (h : (⟨2, ![a, 1]⟩ : Shape).Reduces [0] ⟨1, ![1]⟩) (j : (⟨1, ![1]⟩ : Shape).Idx) (s : Fin a) :
    h.lift j s = ix2 s (0 : Fin 1) :=
  funext fun c => Fin.ext (by
    match c with
    | ⟨0, _⟩ => rfl
    | ⟨1, _⟩ =>
      show (j ⟨0, _⟩).val = 0
      have hj : (j ⟨0, Nat.one_pos⟩).val < 1 := (j ⟨0, Nat.one_pos⟩).isLt
      omega)

/-- The sum of a column along its rows. -/
theorem colSum1_apply {a : ℕ} (X : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ)
    (j : (⟨1, ![1]⟩ : Shape).Idx) :
    multiReduction .add [0] ⟨1, ![1]⟩ X 0x00000000#32 h hφ hacc j = ∑ s : Fin a, X (ix2 s (0 : Fin 1)) := by
  refine (Ideal.multiReduction_add_single X _ h hφ hacc j).trans ?_
  show ∑ s : Fin a, _ = _
  exact Finset.sum_congr rfl fun s _ => congrArg X (lift_col h j s)

/-- The maximum of a column along its rows, started from the bottom element's word: the fold of max over the rows. -/
theorem colMax1_apply {a : ℕ} (X : FVec Ideal ⟨2, ![a, 1]⟩ .f32) (h : (⟨2, ![a, 1]⟩ : Shape).Reduces [0] ⟨1, ![1]⟩)
    (hφ : FKind.Formats .f32) (hacc : (0xFF800000#32 : BitVec 32) = FKind.maximumf.neutral .f32 hφ)
    (j : (⟨1, ![1]⟩ : Shape).Idx) :
    multiReduction .maximumf [0] ⟨1, ![1]⟩ X 0xFF800000#32 h hφ hacc j
      = (Finset.univ : Finset (Fin a)).fold max (Ideal.ofBits .f32 0xFF800000#32) (fun s => X (ix2 s (0 : Fin 1))) := by
  refine (Ideal.multiReduction_maximumf_single X _ h hφ hacc j).trans ?_
  show (Finset.univ : Finset (Fin a)).fold max (Ideal.ofBits .f32 0xFF800000#32) _ = _
  exact congrArg (fun f => (Finset.univ : Finset (Fin a)).fold max (Ideal.ofBits .f32 0xFF800000#32) f)
    (funext fun s => congrArg X (lift_col h j s))

end Cert.LibReduceRead

end
-- ==== Proof.KOps.lean ====
import proofs.«169957_g74457553044435_cont_9to1_m_1141_2_alg».proof.Proof.Gen.KernelIdeal.Skeleton
import proofs.«169957_g74457553044435_cont_9to1_m_1141_2_alg».proof.Proof.Spec
import proofs.«169957_g74457553044435_cont_9to1_m_1141_2_alg».proof.Proof.LibLayout
import proofs.«169957_g74457553044435_cont_9to1_m_1141_2_alg».proof.Proof.LibReduceRead
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Kv

open Cert.KernelIdeal Cert.KernelIdeal.Gen

open Idealize.ShloMosaic.ValueIdx

/-! ## The body's three matrix products, entry by entry, on the extended reals

Each is a product into a zero accumulator, so an entry is the plain sum over the one contracted axis: the squared
norms (a block times a column of ones), the logits (a block of memory rows against the 32 scaled queries, contracted
over the 64 lanes) and the weighted sums (the weights against the memory rows, contracted over the block's rows). -/
theorem n_l0 (i : S4096x1.Idx) (q : dot_S4096x64_S64x1_S4096x1_1_0_0_1_n_n.contr.Idx) :
    (dot_S4096x64_S64x1_S4096x1_1_0_0_1_n_n.lhsIdx i q 0).val = (i 0).val := by
  unfold DotDims.lhsIdx
  rw [dif_neg (show ¬(0 : Fin S4096x64.rank) ∈ dot_S4096x64_S64x1_S4096x1_1_0_0_1_n_n.lhsBatch by decide), dif_pos (show (0 : Fin S4096x64.rank) ∈ dot_S4096x64_S64x1_S4096x1_1_0_0_1_n_n.lhsNonContracting by decide)]
  rfl
theorem n_l1 (i : S4096x1.Idx) (q : dot_S4096x64_S64x1_S4096x1_1_0_0_1_n_n.contr.Idx) :
    (dot_S4096x64_S64x1_S4096x1_1_0_0_1_n_n.lhsIdx i q 1).val = (q ⟨0, by decide⟩).val :=
  dot_S4096x64_S64x1_S4096x1_1_0_0_1_n_n.lhsIdx_val_of_single rfl i q
theorem n_r0 (i : S4096x1.Idx) (q : dot_S4096x64_S64x1_S4096x1_1_0_0_1_n_n.contr.Idx) :
    (dot_S4096x64_S64x1_S4096x1_1_0_0_1_n_n.rhsIdx i q 0).val = (q ⟨0, by decide⟩).val :=
  dot_S4096x64_S64x1_S4096x1_1_0_0_1_n_n.rhsIdx_val_of_single rfl i q
theorem n_r1 (i : S4096x1.Idx) (q : dot_S4096x64_S64x1_S4096x1_1_0_0_1_n_n.contr.Idx) :
    (dot_S4096x64_S64x1_S4096x1_1_0_0_1_n_n.rhsIdx i q 1).val = (i 1).val := by
  unfold DotDims.rhsIdx
  rw [dif_neg (show ¬(1 : Fin S64x1.rank) ∈ dot_S4096x64_S64x1_S4096x1_1_0_0_1_n_n.rhsBatch by decide), dif_pos (show (1 : Fin S64x1.rank) ∈ dot_S4096x64_S64x1_S4096x1_1_0_0_1_n_n.rhsNonContracting by decide)]
  rfl

theorem mmNorm_apply (l : FVec Ideal S4096x64 .f32) (r : FVec Ideal S64x1 .f32) (p : Fin 4096) (u : Fin 1) :
    matmul (F := Ideal) dot_S4096x64_S64x1_S4096x1_1_0_0_1_n_n none l r (constant (F := Ideal) S4096x1 .f32 0x00000000#32) (ix2 p u)
      = ∑ k : Fin 64, l (ix2 p k) * r (ix2 k u) := by
  simp only [matmul]
  rw [Ideal.matmul_constant_zero_apply, ← Equiv.sum_comp (ValueIdx.contrEquiv1 dot_S4096x64_S64x1_S4096x1_1_0_0_1_n_n 64 rfl rfl).symm]
  refine Finset.sum_congr rfl fun k _ => ?_
  have hk := ValueIdx.contrEquiv1_symm_val dot_S4096x64_S64x1_S4096x1_1_0_0_1_n_n 64 rfl rfl k
  have el : dot_S4096x64_S64x1_S4096x1_1_0_0_1_n_n.lhsIdx (ix2 p u) ((ValueIdx.contrEquiv1 dot_S4096x64_S64x1_S4096x1_1_0_0_1_n_n 64 rfl rfl).symm k) = ix2 p k := funext fun a => Fin.ext (by
    match a with
    | ⟨0, _⟩ => exact n_l0 _ _
    | ⟨1, _⟩ => exact (n_l1 _ _).trans hk)
  have er : dot_S4096x64_S64x1_S4096x1_1_0_0_1_n_n.rhsIdx (ix2 p u) ((ValueIdx.contrEquiv1 dot_S4096x64_S64x1_S4096x1_1_0_0_1_n_n 64 rfl rfl).symm k) = ix2 k u := funext fun a => Fin.ext (by
    match a with
    | ⟨0, _⟩ => exact (n_r0 _ _).trans hk
    | ⟨1, _⟩ => exact n_r1 _ _)
  rw [el, er]
theorem g_l0 (i : S4096x32.Idx) (q : dot_S4096x64_S32x64_S4096x32_1_1_0_0_n_n.contr.Idx) :
    (dot_S4096x64_S32x64_S4096x32_1_1_0_0_n_n.lhsIdx i q 0).val = (i 0).val := by
  unfold DotDims.lhsIdx
  rw [dif_neg (show ¬(0 : Fin S4096x64.rank) ∈ dot_S4096x64_S32x64_S4096x32_1_1_0_0_n_n.lhsBatch by decide), dif_pos (show (0 : Fin S4096x64.rank) ∈ dot_S4096x64_S32x64_S4096x32_1_1_0_0_n_n.lhsNonContracting by decide)]
  rfl
theorem g_l1 (i : S4096x32.Idx) (q : dot_S4096x64_S32x64_S4096x32_1_1_0_0_n_n.contr.Idx) :
    (dot_S4096x64_S32x64_S4096x32_1_1_0_0_n_n.lhsIdx i q 1).val = (q ⟨0, by decide⟩).val :=
  dot_S4096x64_S32x64_S4096x32_1_1_0_0_n_n.lhsIdx_val_of_single rfl i q
theorem g_r0 (i : S4096x32.Idx) (q : dot_S4096x64_S32x64_S4096x32_1_1_0_0_n_n.contr.Idx) :
    (dot_S4096x64_S32x64_S4096x32_1_1_0_0_n_n.rhsIdx i q 0).val = (i 1).val := by
  unfold DotDims.rhsIdx
  rw [dif_neg (show ¬(0 : Fin S32x64.rank) ∈ dot_S4096x64_S32x64_S4096x32_1_1_0_0_n_n.rhsBatch by decide), dif_pos (show (0 : Fin S32x64.rank) ∈ dot_S4096x64_S32x64_S4096x32_1_1_0_0_n_n.rhsNonContracting by decide)]
  rfl
theorem g_r1 (i : S4096x32.Idx) (q : dot_S4096x64_S32x64_S4096x32_1_1_0_0_n_n.contr.Idx) :
    (dot_S4096x64_S32x64_S4096x32_1_1_0_0_n_n.rhsIdx i q 1).val = (q ⟨0, by decide⟩).val :=
  dot_S4096x64_S32x64_S4096x32_1_1_0_0_n_n.rhsIdx_val_of_single rfl i q

theorem mmLogit_apply (l : FVec Ideal S4096x64 .f32) (r : FVec Ideal S32x64 .f32) (p : Fin 4096) (b : Fin 32) :
    matmul (F := Ideal) dot_S4096x64_S32x64_S4096x32_1_1_0_0_n_n none l r (constant (F := Ideal) S4096x32 .f32 0x00000000#32) (ix2 p b)
      = ∑ k : Fin 64, l (ix2 p k) * r (ix2 b k) := by
  simp only [matmul]
  rw [Ideal.matmul_constant_zero_apply, ← Equiv.sum_comp (ValueIdx.contrEquiv1 dot_S4096x64_S32x64_S4096x32_1_1_0_0_n_n 64 rfl rfl).symm]
  refine Finset.sum_congr rfl fun k _ => ?_
  have hk := ValueIdx.contrEquiv1_symm_val dot_S4096x64_S32x64_S4096x32_1_1_0_0_n_n 64 rfl rfl k
  have el : dot_S4096x64_S32x64_S4096x32_1_1_0_0_n_n.lhsIdx (ix2 p b) ((ValueIdx.contrEquiv1 dot_S4096x64_S32x64_S4096x32_1_1_0_0_n_n 64 rfl rfl).symm k) = ix2 p k := funext fun a => Fin.ext (by
    match a with
    | ⟨0, _⟩ => exact g_l0 _ _
    | ⟨1, _⟩ => exact (g_l1 _ _).trans hk)
  have er : dot_S4096x64_S32x64_S4096x32_1_1_0_0_n_n.rhsIdx (ix2 p b) ((ValueIdx.contrEquiv1 dot_S4096x64_S32x64_S4096x32_1_1_0_0_n_n 64 rfl rfl).symm k) = ix2 b k := funext fun a => Fin.ext (by
    match a with
    | ⟨0, _⟩ => exact g_r0 _ _
    | ⟨1, _⟩ => exact (g_r1 _ _).trans hk)
  rw [el, er]
theorem a_l0 (i : S32x64.Idx) (q : dot_S4096x32_S4096x64_S32x64_0_0_1_1_n_n.contr.Idx) :
    (dot_S4096x32_S4096x64_S32x64_0_0_1_1_n_n.lhsIdx i q 0).val = (q ⟨0, by decide⟩).val :=
  dot_S4096x32_S4096x64_S32x64_0_0_1_1_n_n.lhsIdx_val_of_single rfl i q
theorem a_l1 (i : S32x64.Idx) (q : dot_S4096x32_S4096x64_S32x64_0_0_1_1_n_n.contr.Idx) :
    (dot_S4096x32_S4096x64_S32x64_0_0_1_1_n_n.lhsIdx i q 1).val = (i 0).val := by
  unfold DotDims.lhsIdx
  rw [dif_neg (show ¬(1 : Fin S4096x32.rank) ∈ dot_S4096x32_S4096x64_S32x64_0_0_1_1_n_n.lhsBatch by decide), dif_pos (show (1 : Fin S4096x32.rank) ∈ dot_S4096x32_S4096x64_S32x64_0_0_1_1_n_n.lhsNonContracting by decide)]
  rfl
theorem a_r0 (i : S32x64.Idx) (q : dot_S4096x32_S4096x64_S32x64_0_0_1_1_n_n.contr.Idx) :
    (dot_S4096x32_S4096x64_S32x64_0_0_1_1_n_n.rhsIdx i q 0).val = (q ⟨0, by decide⟩).val :=
  dot_S4096x32_S4096x64_S32x64_0_0_1_1_n_n.rhsIdx_val_of_single rfl i q
theorem a_r1 (i : S32x64.Idx) (q : dot_S4096x32_S4096x64_S32x64_0_0_1_1_n_n.contr.Idx) :
    (dot_S4096x32_S4096x64_S32x64_0_0_1_1_n_n.rhsIdx i q 1).val = (i 1).val := by
  unfold DotDims.rhsIdx
  rw [dif_neg (show ¬(1 : Fin S4096x64.rank) ∈ dot_S4096x32_S4096x64_S32x64_0_0_1_1_n_n.rhsBatch by decide), dif_pos (show (1 : Fin S4096x64.rank) ∈ dot_S4096x32_S4096x64_S32x64_0_0_1_1_n_n.rhsNonContracting by decide)]
  rfl

theorem mmAcc_apply (l : FVec Ideal S4096x32 .f32) (r : FVec Ideal S4096x64 .f32) (b : Fin 32) (e : Fin 64) :
    matmul (F := Ideal) dot_S4096x32_S4096x64_S32x64_0_0_1_1_n_n none l r (constant (F := Ideal) S32x64 .f32 0x00000000#32) (ix2 b e)
      = ∑ k : Fin 4096, l (ix2 k b) * r (ix2 k e) := by
  simp only [matmul]
  rw [Ideal.matmul_constant_zero_apply, ← Equiv.sum_comp (ValueIdx.contrEquiv1 dot_S4096x32_S4096x64_S32x64_0_0_1_1_n_n 4096 rfl rfl).symm]
  refine Finset.sum_congr rfl fun k _ => ?_
  have hk := ValueIdx.contrEquiv1_symm_val dot_S4096x32_S4096x64_S32x64_0_0_1_1_n_n 4096 rfl rfl k
  have el : dot_S4096x32_S4096x64_S32x64_0_0_1_1_n_n.lhsIdx (ix2 b e) ((ValueIdx.contrEquiv1 dot_S4096x32_S4096x64_S32x64_0_0_1_1_n_n 4096 rfl rfl).symm k) = ix2 k b := funext fun a => Fin.ext (by
    match a with
    | ⟨0, _⟩ => exact (a_l0 _ _).trans hk
    | ⟨1, _⟩ => exact a_l1 _ _)
  have er : dot_S4096x32_S4096x64_S32x64_0_0_1_1_n_n.rhsIdx (ix2 b e) ((ValueIdx.contrEquiv1 dot_S4096x32_S4096x64_S32x64_0_0_1_1_n_n 4096 rfl rfl).symm k) = ix2 k e := funext fun a => Fin.ext (by
    match a with
    | ⟨0, _⟩ => exact (a_r0 _ _).trans hk
    | ⟨1, _⟩ => exact a_r1 _ _)
  rw [el, er]

end Cert.KernelIdeal.Kv
end
-- ==== Proof.SpecRow.lean ====
/-
  The streaming spelling row by row: the weight of one memory row depends on the query row, on that memory row and on
  that row's strength only.
-/
import proofs.«169957_g74457553044435_cont_9to1_m_1141_2_alg».proof.Proof.Spec

noncomputable section

namespace Cert.MemRead

open Idealize.ShloMosaic

variable {N D : ℕ}

/-- The unshifted weight of a memory row y with strength s against the query row x. -/
def wRow (x y : Fin D → EReal) (s : EReal) : EReal :=
  Ideal.exp ((∑ d, y d * (x d * qsK x)) * (s * Ideal.div w1 (max (Ideal.sqrt (∑ d, y d * y d * w1)) eps)))

theorem wK_eq_wRow (x : Fin D → EReal) (mem : Fin N → Fin D → EReal) (st : Fin N → EReal) (j : Fin N) :
    wK x mem st j = wRow x (mem j) (st j) := rfl

end Cert.MemRead

end
-- ==== Proof.KPay.lean ====
import proofs.«169957_g74457553044435_cont_9to1_m_1141_2_alg».proof.Proof.KOps
import proofs.«169957_g74457553044435_cont_9to1_m_1141_2_alg».proof.Proof.SpecRow

set_option maxRecDepth 16384

noncomputable section

open Idealize.ShloMosaic Idealize.ShloMosaic.TcCoe Idealize.SL.Sem
open Idealize.ShloMosaic.Pipeline (Dat)

namespace Cert.KernelIdeal.Kv

open Cert.KernelIdeal Cert.KernelIdeal.Gen

open Idealize.ShloMosaic.ValueIdx Cert.MemRead

/-! ## The body's arithmetic at an entry, on the extended reals -/

/-- The column of query scales 1 / max(√(Σ_d q²), ε), one per query row. -/
def qScaleCol (x0 : FVec Ideal S32x64 .f32) : FVec Ideal S32x1 .f32 :=
  divf (broadcast S32x1 (Scalar.ofBits (F := Ideal) .f32 0x3F800000#32))
    (maximumf (sqrt (shapeCast S32x1 (multiReduction (F := Ideal) .add [1] S32
        (mulf (shapeCast S32x64 x0 shapeCasts_S32x64_S32x64) (shapeCast S32x64 x0 shapeCasts_S32x64_S32x64))
        0x00000000#32 reduces_S32x64_S32 (.inl rfl) rfl) shapeCasts_S32_S32x1))
      (broadcast S32x1 (Scalar.ofBits (F := Ideal) .f32 0x2B8CBCCC#32)))

/-- The scaled queries. -/
def qScaled (x0 : FVec Ideal S32x64 .f32) : FVec Ideal S32x64 .f32 :=
  mulf (shapeCast S32x64 x0 shapeCasts_S32x64_S32x64) (broadcastTo S32x64 (qScaleCol x0) broadcasts_S32x1_S32x64)

/-- The column of memory-row factors strength · 1 / max(√(Σ_d m² · 1), ε), one per row of the block. -/
def mFactor (x1 : FVec Ideal S4096x64 .f32) (x2 : FVec Ideal S1x1x4096 .f32) : FVec Ideal S4096x1 .f32 :=
  mulf (transpose S4096x1 [1, 0] (shapeCast S1x4096 x2 shapeCasts_S1x1x4096_S1x4096) transposes_S1x4096_p1_0_S4096x1)
    (divf (broadcast S4096x1 (Scalar.ofBits (F := Ideal) .f32 0x3F800000#32))
      (maximumf (sqrt (matmul (F := Ideal) (φ₁ := .f32) (φ₂ := .f32) dot_S4096x64_S64x1_S4096x1_1_0_0_1_n_n none (mulf x1 x1)
          (broadcast S64x1 (Scalar.ofBits (F := Ideal) .f32 0x3F800000#32)) (constant (F := Ideal) S4096x1 .f32 0x00000000#32)))
        (broadcast S4096x1 (Scalar.ofBits (F := Ideal) .f32 0x2B8CBCCC#32))))

/-- The block's weights are the exponentials of the logits (rows of the block against the scaled queries) times the row factors. -/
theorem pay6_eq (x0 : Vec Ideal S32x64 .f32) (x1 : Vec Ideal S4096x64 .f32) (x2 : Vec Ideal S1x1x4096 .f32) :
    k0_pay6 x0 x1 x2 = exp (mulf (matmul (F := Ideal) (φ₁ := .f32) (φ₂ := .f32) dot_S4096x64_S32x64_S4096x32_1_1_0_0_n_n none (x1 : FVec Ideal S4096x64 .f32) (qScaled x0) (constant (F := Ideal) S4096x32 .f32 0x00000000#32))
      (broadcastTo S4096x32 (mFactor x1 x2) broadcasts_S4096x1_S4096x32)) := rfl

theorem qScaleCol_apply (x0 : FVec Ideal S32x64 .f32) (b : Fin 32) (u : Fin 1) :
    qScaleCol x0 (ix2 b u) = qsK (fun d => x0 (ix2 b d)) := by
  have hs := shapeCast_self x0 shapeCasts_S32x64_S32x64
  show Ideal.div w1 (max (Ideal.sqrt (shapeCast S32x1 (multiReduction (F := Ideal) .add [1] S32
        (mulf (shapeCast S32x64 x0 shapeCasts_S32x64_S32x64) (shapeCast S32x64 x0 shapeCasts_S32x64_S32x64))
        0x00000000#32 reduces_S32x64_S32 (.inl rfl) rfl) shapeCasts_S32_S32x1 (ix2 b u))) eps)
    = Ideal.div w1 (max (Ideal.sqrt (∑ d, x0 (ix2 b d) * x0 (ix2 b d))) eps)
  refine congrArg (fun z => Ideal.div w1 (max (Ideal.sqrt z) eps)) ?_
  refine (Cert.LibLayout.shapeCast_a_a1_apply _ _ b u).trans ?_
  refine (Cert.LibReduceRead.rowSum_apply _ _ _ _ b).trans ?_
  rw [hs]
  rfl

theorem qScaled_apply (x0 : FVec Ideal S32x64 .f32) (b : Fin 32) (d : Fin 64) :
    qScaled x0 (ix2 b d) = x0 (ix2 b d) * qsK (fun d => x0 (ix2 b d)) := by
  have hs := shapeCast_self x0 shapeCasts_S32x64_S32x64
  show shapeCast S32x64 x0 shapeCasts_S32x64_S32x64 (ix2 b d) * broadcastTo S32x64 (qScaleCol x0) broadcasts_S32x1_S32x64 (ix2 b d) = _
  rw [hs]
  refine congrArg (x0 (ix2 b d) * ·) ?_
  exact (Cert.LibLayout.broadcastTo_a1_ab_apply _ _ b d).trans (qScaleCol_apply x0 b 0)

theorem mFactor_apply (x1 : FVec Ideal S4096x64 .f32) (x2 : FVec Ideal S1x1x4096 .f32) (p : Fin 4096) :
    mFactor x1 x2 (ix2 p (0 : Fin 1)) = x2 (ix3 (0 : Fin 1) (0 : Fin 1) p)
      * Ideal.div w1 (max (Ideal.sqrt (∑ d : Fin 64, x1 (ix2 p d) * x1 (ix2 p d) * w1)) eps) := by
  show transpose S4096x1 [1, 0] (shapeCast S1x4096 x2 shapeCasts_S1x1x4096_S1x4096) transposes_S1x4096_p1_0_S4096x1 (ix2 p (0 : Fin 1))
      * Ideal.div w1 (max (Ideal.sqrt (matmul (F := Ideal) (φ₁ := .f32) (φ₂ := .f32) dot_S4096x64_S64x1_S4096x1_1_0_0_1_n_n none (mulf x1 x1)
          (broadcast S64x1 (Scalar.ofBits (F := Ideal) .f32 0x3F800000#32)) (constant (F := Ideal) S4096x1 .f32 0x00000000#32) (ix2 p (0 : Fin 1))))
        eps) = _
  refine congrArg₂ (· * ·) ?_ ?_
  · exact (transpose_ix2_apply _ _ p (0 : Fin 1)).trans (shapeCast_1ab_ab_apply _ _ (0 : Fin 1) p)
  · refine congrArg (fun z => Ideal.div w1 (max (Ideal.sqrt z) eps)) ?_
    exact mmNorm_apply _ _ p 0

/-- A weight of the block: the weight of memory row p of the block against query row b. -/
theorem pay6_apply (x0 : Vec Ideal S32x64 .f32) (x1 : Vec Ideal S4096x64 .f32) (x2 : Vec Ideal S1x1x4096 .f32) (p : Fin 4096) (b : Fin 32) :
    k0_pay6 x0 x1 x2 (ix2 p b) = wRow (fun d => x0 (ix2 b d)) (fun d => x1 (ix2 p d)) (x2 (ix3 (0 : Fin 1) (0 : Fin 1) p)) := by
  rw [pay6_eq]
  show Ideal.exp (matmul (F := Ideal) (φ₁ := .f32) (φ₂ := .f32) dot_S4096x64_S32x64_S4096x32_1_1_0_0_n_n none (x1 : FVec Ideal S4096x64 .f32) (qScaled x0) (constant (F := Ideal) S4096x32 .f32 0x00000000#32) (ix2 p b)
      * broadcastTo S4096x32 (mFactor x1 x2) broadcasts_S4096x1_S4096x32 (ix2 p b)) = _
  unfold wRow
  refine congrArg Ideal.exp (congrArg₂ (· * ·) ?_ ?_)
  · refine (mmLogit_apply _ _ p b).trans (Finset.sum_congr rfl fun k _ => ?_)
    exact congrArg (x1 (ix2 p k) * ·) (qScaled_apply x0 b k)
  · exact (Cert.LibLayout.broadcastTo_a1_ab_apply _ _ p b).trans (mFactor_apply x1 x2 p)

/-- The weight-sum accumulator's new value: the old one plus the block's column sums of the weights. -/
theorem pay7_apply (x0 : Vec Ideal S32x64 .f32) (x1 : Vec Ideal S4096x64 .f32) (x2 : Vec Ideal S1x1x4096 .f32) (v32 : Vec Ideal S1x32 .f32) (u : Fin 1) (b : Fin 32) :
    k0_pay1 (k0_pay7 x0 x1 x2 v32) (ix2 u b) = v32 (ix2 u b) + ∑ p : Fin 4096, k0_pay6 x0 x1 x2 (ix2 p b) := by
  have hs : k0_pay1 (k0_pay7 x0 x1 x2 v32) = k0_pay7 x0 x1 x2 v32 := shapeCast_self _ _
  rw [hs]
  show v32 (ix2 u b) + shapeCast S1x32 (multiReduction (F := Ideal) .add [0] S32 (k0_pay6 x0 x1 x2) 0x00000000#32 reduces_S4096x32_S32 (.inl rfl) rfl) shapeCasts_S32_S1x32 (ix2 u b) = _
  refine congrArg (v32 (ix2 u b) + ·) ?_
  exact (shapeCast_a_1a_apply _ _ u b).trans (Cert.LibReduceRead.colSum_apply _ _ _ _ b)

/-- The weighted-sum accumulator's new value: the old one plus the block's weights against its memory rows. -/
theorem pay2_apply (v15 : Vec Ideal S4096x64 .f32) (v31 : FVec Ideal S4096x32 .f32) (v39 : Vec Ideal S32x64 .f32) (b : Fin 32) (e : Fin 64) :
    k0_pay2 v15 v31 v39 (ix2 b e) = v39 (ix2 b e) + ∑ p : Fin 4096, v31 (ix2 p b) * v15 (ix2 p e) := by
  have hs : k0_pay2 v15 v31 v39 = addf (v39 : FVec Ideal S32x64 .f32) (matmul (F := Ideal) (φ₁ := .f32) (φ₂ := .f32) dot_S4096x32_S4096x64_S32x64_0_0_1_1_n_n none v31 (v15 : FVec Ideal S4096x64 .f32) (constant (F := Ideal) S32x64 .f32 0x00000000#32)) := shapeCast_self _ _
  rw [hs]
  show v39 (ix2 b e) + matmul (F := Ideal) (φ₁ := .f32) (φ₂ := .f32) dot_S4096x32_S4096x64_S32x64_0_0_1_1_n_n none v31 (v15 : FVec Ideal S4096x64 .f32) (constant (F := Ideal) S32x64 .f32 0x00000000#32) (ix2 b e) = _
  exact congrArg (v39 (ix2 b e) + ·) (mmAcc_apply _ _ b e)

/-- The output block: the weighted sums divided by the total weights. -/
theorem pay3_apply (v48 : Vec Ideal S32x64 .f32) (v49 : Vec Ideal S1x32 .f32) (b : Fin 32) (e : Fin 64) :
    k0_pay3 v48 v49 (ix2 b e) = Ideal.div (v48 (ix2 b e)) (v49 (ix2 (0 : Fin 1) b)) := by
  show Ideal.div (v48 (ix2 b e)) (broadcastTo S32x64 (transpose S32x1 [1, 0] (v49 : FVec Ideal S1x32 .f32) transposes_S1x32_p1_0_S32x1) broadcasts_S32x1_S32x64 (ix2 b e)) = _
  refine congrArg (Ideal.div (v48 (ix2 b e)) ·) ?_
  exact (Cert.LibLayout.broadcastTo_a1_ab_apply _ _ b e).trans (transpose_ix2_apply _ _ b (0 : Fin 1))

/-- The zeros stored at the first point. -/
theorem pay4_apply (i : S1x32.Idx) : k0_pay4 (F := Ideal) i = 0 := by
  have hs : k0_pay4 (F := Ideal) = broadcast S1x32 (Scalar.ofBits (F := Ideal) .f32 0x00000000#32) := shapeCast_self _ _
  rw [hs]
  exact Ideal.ofBits_zero_f32
theorem pay5_apply (i : S32x64.Idx) : k0_pay5 (F := Ideal) i = 0 := by
  have hs : k0_pay5 (F := Ideal) = broadcast S32x64 (Scalar.ofBits (F := Ideal) .f32 0x00000000#32) := shapeCast_self _ _
  rw [hs]
  exact Ideal.ofBits_zero_f32

end Cert.KernelIdeal.Kv
end
-- ==== Proof.LibSumBlocks.lean ====
/-
  A sum over all rows as a sum over row blocks.

  An array of `A·B` rows walked in `A` consecutive blocks of `B` rows: the sum over all rows of any quantity in a
  commutative monoid is the sum over the blocks of the sums inside each block, row `k·B + p` being row `p` of block
  `k`. A second form has the block index run over a range of naturals with a guard, the shape an induction over
  grid points produces. Generic in `A`, `B` and the monoid.
-/
import Mathlib.Algebra.BigOperators.Fin
import Mathlib.Logic.Equiv.Fin.Basic

namespace Cert.LibSumBlocks

open scoped BigOperators

variable {M : Type*} [AddCommMonoid M]

theorem row_lt {A B : ℕ} (k : Fin A) (p : Fin B) : k.val * B + p.val < A * B := by
  have hk := k.isLt
  have hp := p.isLt
  have h1 : k.val * B + p.val < k.val * B + B := by omega
  have h2 : k.val * B + B = (k.val + 1) * B := (Nat.succ_mul k.val B).symm
  have h3 : (k.val + 1) * B ≤ A * B := Nat.mul_le_mul_right B hk
  omega

/-- The sum over all `A·B` rows is the sum over blocks of the sums inside the blocks. -/
theorem sum_blocks (A B : ℕ) (f : Fin (A * B) → M) :
    ∑ r : Fin (A * B), f r = ∑ k : Fin A, ∑ p : Fin B, f ⟨k.val * B + p.val, row_lt k p⟩ := by
  rw [← Equiv.sum_comp finProdFinEquiv f, Fintype.sum_prod_type]
  refine Finset.sum_congr rfl fun k _ => Finset.sum_congr rfl fun p _ => congrArg f (Fin.ext ?_)
  show p.val + B * k.val = k.val * B + p.val
  rw [Nat.mul_comm, Nat.add_comm]

/-- The same with the block index running over a range of naturals under a guard. -/
theorem sum_blocks_range (A B : ℕ) (f : Fin (A * B) → M) :
    ∑ r : Fin (A * B), f r
      = ∑ k ∈ Finset.range A, if h : k < A then ∑ p : Fin B, f ⟨k * B + p.val, row_lt ⟨k, h⟩ p⟩ else 0 := by
  rw [sum_blocks, Finset.sum_range]
  refine Finset.sum_congr rfl fun k _ => ?_
  rw [dif_pos k.isLt]

end Cert.LibSumBlocks
-- ==== Proof.KAccum.lean ====
import proofs.«169957_g74457553044435_cont_9to1_m_1141_2_alg».proof.Proof.KBlocks
import proofs.«169957_g74457553044435_cont_9to1_m_1141_2_alg».proof.Proof.KPay
import proofs.«169957_g74457553044435_cont_9to1_m_1141_2_alg».proof.Proof.LibSumBlocks

set_option maxRecDepth 16384

noncomputable section

open Idealize.ShloMosaic Idealize.ShloMosaic.TcCoe Idealize.SL.Sem
open Idealize.ShloMosaic.Pipeline (Dat)

namespace Cert.KernelIdeal.Kv

open Cert.KernelIdeal Cert.KernelIdeal.Gen

open Idealize.ShloMosaic.ValueIdx Cert.MemRead

variable (m : (ℓ : Loc nD τ sig) → Buf (Elt Ideal) ℓ)

/-! ## The accumulators in closed form

On the extended reals the weight-sum accumulator after point n is the sum over blocks 0..n of the blocks' sums of
weights, and the weighted-sum accumulator the sum over those blocks of the weights times the memory rows: addition is
commutative and associative and the stored zero is the neutral element, so the order of accumulation does not
matter. After the last point these are the sums over all 256·4096 memory rows. -/

/-- Query row b, as the region finds it. -/
def QA (c : Dev nD) (b : Fin 32) : Fin 64 → EReal := fun d => V m c main_v0 (ix2 b d)
/-- Memory row j. -/
def MA (c : Dev nD) (j : Fin (256 * 4096)) : Fin 64 → EReal := fun d => m ((c : Thread nD τ).loc main_arg1) (ix2 j d)
/-- The strength of memory row j. -/
def SA (c : Dev nD) (j : Fin (256 * 4096)) : EReal := m ((c : Thread nD τ).loc main_arg2) (ix1 j)

/-- The weight of memory row j against query row b. -/
def wS (c : Dev nD) (b : Fin 32) (j : Fin (256 * 4096)) : EReal := wRow (QA m c b) (MA m c j) (SA m c j)

/-- Block k's sum of weights for query row b. -/
def blkS (c : Dev nD) (b : Fin 32) (k : ℕ) : EReal :=
  if h : k < 256 then ∑ p : Fin 4096, wS m c b ⟨k * 4096 + p.val, Cert.LibSumBlocks.row_lt ⟨k, h⟩ p⟩ else 0

/-- Block k's weighted sum of column e of its memory rows for query row b. -/
def blkA (c : Dev nD) (b : Fin 32) (e : Fin 64) (k : ℕ) : EReal :=
  if h : k < 256 then ∑ p : Fin 4096, wS m c b ⟨k * 4096 + p.val, Cert.LibSumBlocks.row_lt ⟨k, h⟩ p⟩
      * MA m c ⟨k * 4096 + p.val, Cert.LibSumBlocks.row_lt ⟨k, h⟩ p⟩ e else 0

/-- The body's weight at (p, b) of the block at point t is the weight of memory row 4096·t + p against query row b. -/
theorem block_w (c : Dev nD) (t : Fin cfg0.N) (p : Fin 4096) (b : Fin 32) (hlt : t.val * 4096 + p.val < 256 * 4096) :
    k0_pay6 (iblk m c 0 t) (iblk m c 1 t) (iblk m c 2 t) (ix2 p b) = wS m c b ⟨t.val * 4096 + p.val, hlt⟩ := by
  refine (pay6_apply (iblk m c 0 t) (iblk m c 1 t) (iblk m c 2 t) p b).trans ?_
  unfold wS QA MA SA
  refine congr (congr (congrArg wRow ?_) ?_) ?_
  · exact funext fun d => iblk0_apply m c t b d
  · exact funext fun d => iblk1_apply m c t p d hlt
  · exact iblk2_apply m c t p hlt

theorem pt_lt (n : ℕ) (h : n < cfg0.N) : n < 256 := lt_of_lt_of_eq h N_0

/-- The weight-sum accumulator after point n. -/
theorem accS_apply (c : Dev nD) : ∀ (n : ℕ) (h : n < cfg0.N) (u : Fin 1) (b : Fin 32),
    accS m c n h (ix2 u b) = ∑ k ∈ Finset.range (n + 1), blkS m c b k
  | 0, h, u, b => by
    show k0_pay1 (k0_pay7 (iblk m c 0 ⟨0, h⟩) (iblk m c 1 ⟨0, h⟩) (iblk m c 2 ⟨0, h⟩) (k0_pay4 (F := Ideal))) (ix2 u b) = _
    refine (pay7_apply _ _ _ _ u b).trans ?_
    rw [pay4_apply, zero_add, Finset.sum_range_one]
    unfold blkS
    rw [dif_pos (by norm_num)]
    exact Finset.sum_congr rfl fun p _ => block_w m c ⟨0, h⟩ p b _
  | n + 1, h, u, b => by
    show k0_pay1 (k0_pay7 (iblk m c 0 ⟨n + 1, h⟩) (iblk m c 1 ⟨n + 1, h⟩) (iblk m c 2 ⟨n + 1, h⟩) (accS m c n (Nat.lt_of_succ_lt h))) (ix2 u b) = _
    refine (pay7_apply _ _ _ _ u b).trans ?_
    rw [accS_apply c n _ u b, Finset.sum_range_succ _ (n + 1)]
    refine congrArg (_ + ·) ?_
    unfold blkS
    rw [dif_pos (pt_lt (n + 1) h)]
    exact Finset.sum_congr rfl fun p _ => block_w m c ⟨n + 1, h⟩ p b _

/-- The weighted-sum accumulator after point n. -/
theorem accA_apply (c : Dev nD) : ∀ (n : ℕ) (h : n < cfg0.N) (b : Fin 32) (e : Fin 64),
    accA m c n h (ix2 b e) = ∑ k ∈ Finset.range (n + 1), blkA m c b e k
  | 0, h, b, e => by
    show k0_pay2 (iblk m c 1 ⟨0, h⟩) (k0_pay6 (iblk m c 0 ⟨0, h⟩) (iblk m c 1 ⟨0, h⟩) (iblk m c 2 ⟨0, h⟩)) (k0_pay5 (F := Ideal)) (ix2 b e) = _
    refine (pay2_apply _ _ _ b e).trans ?_
    rw [pay5_apply, zero_add, Finset.sum_range_one]
    unfold blkA
    rw [dif_pos (by norm_num)]
    refine Finset.sum_congr rfl fun p _ => congrArg₂ (· * ·) (block_w m c ⟨0, h⟩ p b _) ?_
    exact iblk1_apply m c ⟨0, h⟩ p e _
  | n + 1, h, b, e => by
    show k0_pay2 (iblk m c 1 ⟨n + 1, h⟩) (k0_pay6 (iblk m c 0 ⟨n + 1, h⟩) (iblk m c 1 ⟨n + 1, h⟩) (iblk m c 2 ⟨n + 1, h⟩)) (accA m c n (Nat.lt_of_succ_lt h)) (ix2 b e) = _
    refine (pay2_apply _ _ _ b e).trans ?_
    rw [accA_apply c n _ b e, Finset.sum_range_succ _ (n + 1)]
    refine congrArg (_ + ·) ?_
    unfold blkA
    rw [dif_pos (pt_lt (n + 1) h)]
    refine Finset.sum_congr rfl fun p _ => congrArg₂ (· * ·) (block_w m c ⟨n + 1, h⟩ p b _) ?_
    exact iblk1_apply m c ⟨n + 1, h⟩ p e _

/-- After the last point the output block holds, at (b, e), the streaming spelling's result for query row b. -/
theorem out_last (c : Dev nD) (n : ℕ) (h : n + 1 < cfg0.N) (h1 : (n + 1) % 256 = 255) (b : Fin 32) (e : Fin 64) :
    (outsAt0 m c (n + 1) h).1 (ix2 b e) = outK (QA m c b) (MA m c) (SA m c) e := by
  have hn : n + 1 + 1 = 256 := by have := pt_lt _ h; omega
  rw [outsAt_last m c n h h1]
  refine (pay3_apply _ _ b e).trans ?_
  rw [accA_apply m c (n + 1) h b e, accS_apply m c (n + 1) h 0 b, hn]
  unfold outK
  refine congrArg₂ Ideal.div ?_ ?_
  · exact (Cert.LibSumBlocks.sum_blocks_range 256 4096 (fun j => wS m c b j * MA m c j e)).symm
  · exact (Cert.LibSumBlocks.sum_blocks_range 256 4096 (fun j => wS m c b j)).symm

end Cert.KernelIdeal.Kv
end
-- ==== Proof.KFinal.lean ====
import proofs.«169957_g74457553044435_cont_9to1_m_1141_2_alg».proof.Proof.KAccum

set_option maxRecDepth 16384

noncomputable section

open Idealize.ShloMosaic Idealize.ShloMosaic.TcCoe Idealize.SL.Sem
open Idealize.ShloMosaic.Pipeline (Dat)

namespace Cert.KernelIdeal.Kv

open Cert.KernelIdeal Cert.KernelIdeal.Gen

open Idealize.ShloMosaic.ValueIdx Cert.MemRead

variable (m : (ℓ : Loc nD τ sig) → Buf (Elt Ideal) ℓ) (ρ : Dev nD → PrngReg)

/-! ## The result array

The output window has one block, the whole [32, 64] result, written back after the last grid point only; so the
result array ends holding what the last point stored, and the program's result is its regrouping as [8, 4, 64]. -/

/-- The [32, 64] result: entry (b, e) is the streaming spelling's value for query row b, column e. -/
def res2 (c : Dev nD) : Buf (Elt Ideal) ((c : Thread nD τ).loc main_v2) :=
  fun i => outK (QA m c (i 0)) (MA m c) (SA m c) (i 1)

/-- What the last point leaves in the output block is the result. -/
theorem out_last_fun (c : Dev nD) (n : ℕ) (h : n + 1 < cfg0.N) (h1 : (n + 1) % 256 = 255) :
    (outsAt0 m c (n + 1) h).1 = (res2 m c : Vec Ideal S32x64 .f32) := by
  funext i
  obtain ⟨b, e, rfl⟩ : ∃ (b : Fin 32) (e : Fin 64), i = ix2 b e := ⟨i 0, i 1, eq_ix2 i⟩
  exact out_last m c n h h1 b e

/-- The output window's block index and extent, the same at every point: the one block is the whole array. -/
theorem idx_out : ∀ t : Fin cfg0.N, (win0_3.index t 0 = 0 ∧ win0_3.index t 1 = 0)
      ∧ (win0_3.xsize (grid0.coords t) 0 = 32 ∧ win0_3.xsize (grid0.coords t) 1 = 64) :=
  (by decide +kernel : ∀ t : Fin grid0.N, (win0_3.index t 0 = 0 ∧ win0_3.index t 1 = 0)
      ∧ (win0_3.xsize (grid0.coords t) 0 = 32 ∧ win0_3.xsize (grid0.coords t) 1 = 64))

/-- The one write-back, after the last point, writes the result: its block is the whole array read at zero offsets. -/
theorem flushed_eq (c : Dev nD) (t : Fin cfg0.N) (hf : (cfg0.win 3).flush t = true) :
    (dats m 0 c).flushed 3 t = ((cfg0.win 3).blk t).view.read (Elt Ideal) (res2 m c) := by
  have hN : cfg0.N = 256 := N_0
  have h1 : t.val % 256 = 255 := (flush0_3 t).mp hf
  have hi := (idx_out t).1
  obtain ⟨tv, tlt⟩ := t
  obtain ⟨n, rfl⟩ : ∃ n, tv = n + 1 := ⟨tv - 1, by dsimp only at h1; omega⟩
  show (cfg0.win 3).cut (grid0.coords ⟨n + 1, tlt⟩) ((dats m 0 c).after 3 ⟨n + 1, tlt⟩) = _
  rw [after0_3]
  show (cfg0.win 3).cut (grid0.coords ⟨n + 1, tlt⟩) (outsAt0 m c (n + 1) tlt).1 = _
  rw [out_last_fun m c n tlt h1]
  have hz' : (fun a => win0_3.index ⟨n + 1, tlt⟩ a * main_v2.ty.shape.size a) = fun _ => 0 := funext fun a => by
    match a with
    | ⟨0, _⟩ => show win0_3.index ⟨n + 1, tlt⟩ 0 * 32 = 0; rw [hi.1]
    | ⟨1, _⟩ => show win0_3.index ⟨n + 1, tlt⟩ 1 * 64 = 0; rw [hi.2]
  exact (Memref.read_access_unit_zero (Elt Ideal) main_v2 hz' (fun a => by rw [congrFun hz' a]; simp) (res2 m c)).symm

theorem lastPt_lt : 255 < cfg0.N := by rw [show cfg0.N = 256 from N_0]; norm_num

/-- So the result array ends holding the result. -/
theorem final2 (c : Dev nD) : (dats m 0 c).arrAt 3 cfg0.N = res2 m c :=
  (dats m 0 c).arrAt_eq_of_cover 3 (res2 m c) (flushed_eq m c) fun i =>
    ⟨⟨255, lastPt_lt⟩, (flush0_3 ⟨255, lastPt_lt⟩).mpr rfl, by
      have hi := idx_out ⟨255, lastPt_lt⟩
      show i ∈ ((View.whole main_v2).slice (win0_3.rect ⟨255, lastPt_lt⟩)).set
      rw [View.set_slice_whole, Rect.mem_set_unit]
      intro a
      have h0 : (i 0 : Nat) < 32 := (i 0).isLt
      have h1 : (i 1 : Nat) < 64 := (i 1).isLt
      match a with
      | ⟨0, _⟩ => show win0_3.index ⟨255, lastPt_lt⟩ 0 * 32 ≤ (i 0 : Nat) ∧ (i 0 : Nat) < win0_3.index ⟨255, lastPt_lt⟩ 0 * 32 + win0_3.xsize (grid0.coords ⟨255, lastPt_lt⟩) 0
                  rw [hi.1.1, hi.2.1]; omega
      | ⟨1, _⟩ => show win0_3.index ⟨255, lastPt_lt⟩ 1 * 64 ≤ (i 1 : Nat) ∧ (i 1 : Nat) < win0_3.index ⟨255, lastPt_lt⟩ 1 * 64 + win0_3.xsize (grid0.coords ⟨255, lastPt_lt⟩) 1
                  rw [hi.1.2, hi.2.2]; omega⟩

/-- The program's result: the [32, 64] result regrouped as [8, 4, 64]. -/
def res3 (c : Dev nD) : Buf (Elt Ideal) ((c : Thread nD τ).loc main_v3) :=
  shapeCast S8x4x64 (res2 m c) shapeCasts_S32x64_S8x4x64

/-- The host line after the region regroups the result array. -/
theorem tail_eq (c : Dev nD) : Pipeline.afterTail₀ cfgs (dats m) 0 (V0 m) [hostOps1] c main_v3 = res3 m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2) = res2 m c :=
    (Pipeline.withArrays_arr spec0 launch0.win.arr_inj c _ _ 3).trans (final2 m c)
  rw [e]
  rfl

/-- Entry (s, u, e) of the program's result is the streaming spelling's value for query row (s, u). -/
theorem res3_apply (c : Dev nD) (s : Fin 8) (u : Fin 4) (e : Fin 64) :
    res3 m c (ix3 s u e) = outK (fun d => m ((c : Thread nD τ).loc main_arg0) (ix3 s u d)) (MA m c) (SA m c) e := by
  unfold res3
  refine (Cert.LibLayout.shapeCast_dc_abc_apply _ _ s u e ⟨4 * s.val + u.val, qrow_lt s u⟩ (by show 4 * s.val + u.val = s.val * 4 + u.val; omega)).trans ?_
  show outK (QA m c ⟨4 * s.val + u.val, qrow_lt s u⟩) (MA m c) (SA m c) e = _
  refine congrArg (fun x => outK x (MA m c) (SA m c) e) ?_
  exact funext fun d => V_v0_apply m c s u d

/-- The run, read: the program's result at the regrouped result, the arguments unchanged. -/
theorem run : θ_run defs (onTc (τ := τ) (main (F := Ideal))) ⟨m, fun _ => 0, ρ⟩ fun r => ∀ c : Dev nD,
      r.2.mem ((c.tc : Thread nD τ).loc main_v3) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Kv
end
-- ==== Proof.LibMaxReduce.lean ====
/-
  A maximum taken by folding from the bottom element is a supremum.

  The host's one-operand reduction with the body `max`, started from -∞, read at the exact instance: at a
  result index it is the supremum of the operand over the source indices that reduce to it.  For a matrix
  this is a column's supremum (reduction over the rows) or the supremum of all entries (reduction over both
  axes), written over the two coordinates.
-/
import Idealize.ShloMosaic.PureOps.Ideal.Laws
import Idealize.ShloMosaic.Lib.ValueIdx

noncomputable section

namespace Cert.ReferenceIdeal.RefValue

open Idealize.ShloMosaic Idealize.ShloMosaic.ValueIdx

/-- Folding `max` from `⊥` over a finite set is the supremum over the set. -/
theorem fold_max_bot_eq_iSup {ι : Type} (S : Finset ι) (x : ι → EReal) :
    S.fold (FloatOps.maximumf (F := Ideal) (φ := .f32)) ⊥ x = ⨆ i ∈ S, x i := by
  rw [← Finset.sup_eq_iSup]
  rfl

/-- The host's max-reduce from -∞ at a result index: the supremum of the operand over the source indices
    that drop to that index. -/
theorem hostMax_eq_iSup {s t u : Shape} {axes : List (Fin s.rank)} (x : s.Idx → EReal) (init : u.Idx → EReal)
    (h : s.ReducesTo axes t) (hu : 0 < u.numel) (hinit : init (Shape.Idx.first hu) = ⊥) (j : t.Idx) :
    Host.reduce (FloatOps.maximumf (F := Ideal) (φ := .f32)) x init h hu j = ⨆ i : s.Idx, ⨆ _ : h.drop i = j, x i := by
  rw [Host.reduce_eq_fold, hinit, fold_max_bot_eq_iSup]
  refine iSup_congr fun i => ?_
  simp only [Finset.mem_filter, Finset.mem_univ, true_and]

/-- Reduction of a matrix over its rows: at column `c` the supremum over the rows. -/
theorem hostMax_rows {R C : Nat} {u : Shape} (x : (⟨2, ![R, C]⟩ : Shape).Idx → EReal) (init : u.Idx → EReal)
    (h : (⟨2, ![R, C]⟩ : Shape).ReducesTo [0] ⟨1, ![C]⟩) (hu : 0 < u.numel) (hinit : init (Shape.Idx.first hu) = ⊥)
    (c : Fin C) :
    Host.reduce (FloatOps.maximumf (F := Ideal) (φ := .f32)) x init h hu (ix1 c) = ⨆ r : Fin R, x (ix2 r c) := by
  rw [hostMax_eq_iSup x init h hu hinit]
  have key : ∀ i : (⟨2, ![R, C]⟩ : Shape).Idx, h.drop i = ix1 c ↔ i 1 = c := fun i => by
    have hv : ((h.drop i 0 : Fin C) : Nat) = (i 1 : Fin C) := rfl
    constructor
    · intro e
      have e0 := congrFun e 0
      exact Fin.ext (hv.symm.trans (congrArg Fin.val e0))
    · intro e
      funext d
      match d with
      | ⟨0, _⟩ => exact Fin.ext (hv.trans (congrArg Fin.val e))
  apply le_antisymm
  · refine iSup_le fun i => iSup_le fun hi => ?_
    have hc : i 1 = c := (key i).1 hi
    rw [eq_ix2 i, hc]
    exact le_iSup (fun r : Fin R => x (ix2 r c)) (i 0)
  · refine iSup_le fun r => ?_
    exact le_iSup_of_le (ix2 r c) (le_iSup_of_le ((key (ix2 r c)).2 rfl) le_rfl)

/-- Reduction of a matrix over both axes: the supremum of all entries. -/
theorem hostMax_all {R C : Nat} {u : Shape} (x : (⟨2, ![R, C]⟩ : Shape).Idx → EReal) (init : u.Idx → EReal)
    (h : (⟨2, ![R, C]⟩ : Shape).ReducesTo [0, 1] ⟨0, ![]⟩) (hu : 0 < u.numel) (hinit : init (Shape.Idx.first hu) = ⊥)
    (j : (⟨0, ![]⟩ : Shape).Idx) :
    Host.reduce (FloatOps.maximumf (F := Ideal) (φ := .f32)) x init h hu j = ⨆ (r : Fin R) (c : Fin C), x (ix2 r c) := by
  rw [hostMax_eq_iSup x init h hu hinit]
  have key : ∀ i : (⟨2, ![R, C]⟩ : Shape).Idx, h.drop i = j := fun i => funext fun a => a.elim0
  apply le_antisymm
  · refine iSup_le fun i => iSup_le fun _ => ?_
    rw [eq_ix2 i]
    exact le_iSup_of_le (i 0) (le_iSup (fun c : Fin C => x (ix2 (i 0) c)) (i 1))
  · refine iSup_le fun r => iSup_le fun c => ?_
    exact le_iSup_of_le (ix2 r c) (le_iSup_of_le (key (ix2 r c)) le_rfl)

end Cert.ReferenceIdeal.RefValue

end
-- ==== Proof.RefRead.lean ====
/-
  The reference program read index by index: its result at (b, t, d) is the textbook spelling of the memory
  read of query row (b, t).

  The program normalises the query rows and the memory rows by max(norm, ε), takes the inner products of the
  normalised rows times the strengths (the logits), subtracts each row's maximum, exponentiates, divides by the
  row's total and multiplies by the memory.  Each stage below is one small equation over the arrays: the two
  norms, the two normalised arrays, the logits, the row maximum (the host's max-reduce from -∞ is the fold of
  max from -∞ over the row, both being the supremum of the row), the weights, their total, the normalised
  weights and the final contraction with the memory.
-/
import proofs.«169957_g74457553044435_cont_9to1_m_1141_2_alg».proof.Proof.Gen.ReferenceIdeal.Read
import proofs.«169957_g74457553044435_cont_9to1_m_1141_2_alg».proof.Proof.Spec
import proofs.«169957_g74457553044435_cont_9to1_m_1141_2_alg».proof.Proof.LibMaxReduce

noncomputable section

namespace Cert.ReferenceIdeal.RefValue

open Cert.ReferenceIdeal Cert.ReferenceIdeal.Gen Cert.ReferenceIdeal.Read Idealize.ShloMosaic Idealize.ShloMosaic.ValueIdx
open Cert.Attn Cert.MemRead

variable (x0 : (⟨S8x4x64, .f32⟩ : BufTy).Contents (Elt Ideal)) (x1 : (⟨S1048576x64, .f32⟩ : BufTy).Contents (Elt Ideal))
  (x2 : (⟨S1048576, .f32⟩ : BufTy).Contents (Elt Ideal))

/-! ## The two norms -/

/-- The query's norm stage at row (b, t): max(‖row‖, ε). -/
theorem qnorm_apply (b : Fin 8) (t : Fin 4) (z : Fin 1) :
    val_main_v2 (F := Ideal) x0 (ix3 b t z) = nrm (fun d => x0 (ix3 b t d)) := by
  rw [val_main_v2_apply, val_main_v0_apply, val_main_call0_v2_apply, val_main_call0_v1_apply, val_main_v1_apply,
    val_main_cst_apply, val_main_call0_cst_apply]
  have e : ∀ k : Fin 64, idx_main_call0_v1 (idx_main_call0_v2 (ix3 b t z)) k = ix3 b t k := fun k =>
    funext fun a => Fin.ext (by match a with | ⟨0, _⟩ => rfl | ⟨1, _⟩ => rfl | ⟨2, _⟩ => rfl)
  simp only [e, val_main_call0_v0_apply, Ideal.ofBits_def, Ideal.ofBits_zero_f32, zero_add]
  rfl

/-- The memory's norm stage at row j: max(‖mem j‖, ε). -/
theorem mnorm_apply (j : Fin 1048576) (z : Fin 1) :
    val_main_v7 (F := Ideal) x1 (ix2 j z) = nrm (fun d => x1 (ix2 j d)) := by
  rw [val_main_v7_apply, val_main_v5_apply, val_main_call1_v2_apply, val_main_call1_v1_apply, val_main_v6_apply,
    val_main_cst_0_apply, val_main_call1_cst_apply]
  have e : ∀ k : Fin 64, idx_main_call1_v1 (idx_main_call1_v2 (ix2 j z)) k = ix2 j k := fun k =>
    funext fun a => Fin.ext (by match a with | ⟨0, _⟩ => rfl | ⟨1, _⟩ => rfl)
  simp only [e, val_main_call1_v0_apply, Ideal.ofBits_def, Ideal.ofBits_zero_f32, zero_add]
  rfl

/-! ## The normalised rows -/

/-- The normalised query at (b, t, d): the entry divided by its row's norm. -/
theorem qscaled_apply (b : Fin 8) (t : Fin 4) (d : Fin 64) :
    val_main_v4 (F := Ideal) x0 (ix3 b t d) = Ideal.div (x0 (ix3 b t d)) (nrm (fun d' => x0 (ix3 b t d'))) := by
  rw [val_main_v4_apply, val_main_v3_apply]
  have e : idx_main_v3 (ix3 b t d) = ix3 b t (0 : Fin 1) :=
    funext fun a => Fin.ext (by match a with | ⟨0, _⟩ => rfl | ⟨1, _⟩ => rfl | ⟨2, _⟩ => rfl)
  rw [e, qnorm_apply]
  rfl

/-- The normalised memory at (j, d): the entry divided by its row's norm. -/
theorem mscaled_apply (j : Fin 1048576) (d : Fin 64) :
    val_main_v9 (F := Ideal) x1 (ix2 j d) = Ideal.div (x1 (ix2 j d)) (nrm (fun d' => x1 (ix2 j d'))) := by
  rw [val_main_v9_apply, val_main_v8_apply]
  have e : idx_main_v8 (ix2 j d) = ix2 j (0 : Fin 1) :=
    funext fun a => Fin.ext (by match a with | ⟨0, _⟩ => rfl | ⟨1, _⟩ => rfl)
  rw [e, mnorm_apply]
  rfl

/-! ## The logits -/

/-- The logit stage at (b, t, j): the inner product of the two normalised rows times the strength of row j. -/
theorem logit_apply (b : Fin 8) (t : Fin 4) (j : Fin 1048576) :
    val_main_v13 (F := Ideal) x0 x1 x2 (ix3 b t j)
      = logitR (fun d => x0 (ix3 b t d)) (fun j' d => x1 (ix2 j' d)) (fun j' => x2 (ix1 j')) j := by
  rw [val_main_v13_apply, val_main_v10_apply, val_main_v12_apply, val_main_v11_apply]
  have el : ∀ k : Fin 64, lidx_main_v10 (ix3 b t j) k = ix3 b t k := fun k =>
    funext fun a => Fin.ext (by match a with | ⟨0, _⟩ => rfl | ⟨1, _⟩ => rfl | ⟨2, _⟩ => rfl)
  have er : ∀ k : Fin 64, ridx_main_v10 (ix3 b t j) k = ix2 j k := fun k =>
    funext fun a => Fin.ext (by match a with | ⟨0, _⟩ => rfl | ⟨1, _⟩ => rfl)
  have es : idx_main_v11 (idx_main_v12 (ix3 b t j)) = ix1 j :=
    funext fun a => Fin.ext (by match a with | ⟨0, _⟩ => rfl)
  simp only [el, er, es, qscaled_apply, mscaled_apply]
  rfl

/-! ## The row maximum -/

/-- The host's max-reduce over the last axis of a rank-3 array, started from -∞, is the row maximum. -/
theorem hostMax_last {A B N : Nat} {u : Shape} (x : (⟨3, ![A, B, N]⟩ : Shape).Idx → EReal) (init : u.Idx → EReal)
    (h : (⟨3, ![A, B, N]⟩ : Shape).ReducesTo [2] ⟨2, ![A, B]⟩) (hu : 0 < u.numel) (hinit : init (Shape.Idx.first hu) = ⊥)
    (a : Fin A) (b : Fin B) :
    Host.reduce (FloatOps.maximumf (F := Ideal) (φ := .f32)) x init h hu (ix2 a b) = rowMax (fun k => x (ix3 a b k)) := by
  rw [hostMax_eq_iSup x init h hu hinit]
  have hr : rowMax (fun k => x (ix3 a b k)) = ⨆ k : Fin N, x (ix3 a b k) :=
    Finset.sup_univ_eq_iSup (fun k : Fin N => x (ix3 a b k))
  rw [hr]
  have key : ∀ i : (⟨3, ![A, B, N]⟩ : Shape).Idx, h.drop i = ix2 a b ↔ i 0 = a ∧ i 1 = b := fun i => by
    have hv0 : ((h.drop i 0 : Fin A) : Nat) = (i 0 : Fin A) := rfl
    have hv1 : ((h.drop i 1 : Fin B) : Nat) = (i 1 : Fin B) := rfl
    constructor
    · intro e
      exact ⟨Fin.ext (hv0.symm.trans (congrArg Fin.val (congrFun e 0))),
        Fin.ext (hv1.symm.trans (congrArg Fin.val (congrFun e 1)))⟩
    · rintro ⟨e0, e1⟩
      funext d
      match d with
      | ⟨0, _⟩ => exact Fin.ext (hv0.trans (congrArg Fin.val e0))
      | ⟨1, _⟩ => exact Fin.ext (hv1.trans (congrArg Fin.val e1))
  apply le_antisymm
  · refine iSup_le fun i => iSup_le fun hi => ?_
    obtain ⟨h0, h1⟩ := (key i).1 hi
    rw [eq_ix3 i, h0, h1]
    exact le_iSup (fun k : Fin N => x (ix3 a b k)) (i 2)
  · refine iSup_le fun k => ?_
    exact le_iSup_of_le (ix3 a b k) (le_iSup_of_le ((key (ix3 a b k)).2 ⟨rfl, rfl⟩) le_rfl)

/-- The maximum stage at (b, t): the row maximum of the logits. -/
theorem max_apply (b : Fin 8) (t : Fin 4) :
    val_main_v16 (F := Ideal) x0 x1 x2 (ix2 b t)
      = rowMax (logitR (fun d => x0 (ix3 b t d)) (fun j' d => x1 (ix2 j' d)) (fun j' => x2 (ix1 j'))) := by
  rw [val_main_v16_apply, val_main_v15_apply, val_main_cst_2_apply]
  unfold val_main_v14
  rw [hostMax_last (val_main_v13 (F := Ideal) x0 x1 x2) (val_main_cst_1 (F := Ideal)) reducesTo_S8x4x1048576_S8x4_d2 h_S_
    (by rw [val_main_cst_1_apply]; exact ofBits_negInf) b t]
  simp only [logit_apply]
  rw [Ideal.ofBits_def, ofBits_negInf, Ideal.maximumf_def]
  exact max_eq_right bot_le

/-! ## The weights, their total, and the result -/

/-- The weight stage at (b, t, j): exp (logit j - row maximum). -/
theorem weight_apply (b : Fin 8) (t : Fin 4) (j : Fin 1048576) :
    val_main_v20 (F := Ideal) x0 x1 x2 (ix3 b t j)
      = wt (logitR (fun d => x0 (ix3 b t d)) (fun j' d => x1 (ix2 j' d)) (fun j' => x2 (ix1 j'))) j := by
  rw [val_main_v20_apply, val_main_v19_apply, val_main_v18_apply, val_main_v17_apply]
  have e : idx_main_v17 (idx_main_v18 (ix3 b t j)) = ix2 b t :=
    funext fun a => Fin.ext (by match a with | ⟨0, _⟩ => rfl | ⟨1, _⟩ => rfl)
  rw [e, logit_apply, max_apply]
  rfl

/-- The total stage at (b, t): the sum of the weights of the row. -/
theorem total_apply (b : Fin 8) (t : Fin 4) :
    val_main_v21 (F := Ideal) x0 x1 x2 (ix2 b t)
      = ∑ j, wt (logitR (fun d => x0 (ix3 b t d)) (fun j' d => x1 (ix2 j' d)) (fun j' => x2 (ix1 j'))) j := by
  rw [val_main_v21_apply, val_main_cst_3_apply, Ideal.ofBits_def, Ideal.ofBits_zero_f32, zero_add]
  refine Finset.sum_congr rfl fun k _ => ?_
  have e : idx_main_v21 (ix2 b t) k = ix3 b t k :=
    funext fun a => Fin.ext (by match a with | ⟨0, _⟩ => rfl | ⟨1, _⟩ => rfl | ⟨2, _⟩ => rfl)
  rw [e, weight_apply]

/-- The normalised weight stage at (b, t, j): the weight divided by the row's total. -/
theorem prob_apply (b : Fin 8) (t : Fin 4) (j : Fin 1048576) :
    val_main_v24 (F := Ideal) x0 x1 x2 (ix3 b t j)
      = Ideal.div (wt (logitR (fun d => x0 (ix3 b t d)) (fun j' d => x1 (ix2 j' d)) (fun j' => x2 (ix1 j'))) j)
          (∑ j'', wt (logitR (fun d => x0 (ix3 b t d)) (fun j' d => x1 (ix2 j' d)) (fun j' => x2 (ix1 j'))) j'') := by
  rw [val_main_v24_apply, val_main_v23_apply, val_main_v22_apply]
  have e : idx_main_v22 (idx_main_v23 (ix3 b t j)) = ix2 b t :=
    funext fun a => Fin.ext (by match a with | ⟨0, _⟩ => rfl | ⟨1, _⟩ => rfl)
  rw [e, weight_apply, total_apply]
  rfl

/-- The reference program's result at (b, t, d) is the textbook spelling of the memory read of query row (b, t):
    the softmax of the logits, weight by weight, times column d of the memory. -/
theorem ref_apply (b : Fin 8) (t : Fin 4) (d : Fin 64) :
    val_main_v25 (F := Ideal) x0 x1 x2 (ix3 b t d)
      = outR (fun d' => x0 (ix3 b t d')) (fun j d' => x1 (ix2 j d')) (fun j => x2 (ix1 j)) d := by
  rw [val_main_v25_apply]
  unfold outR avgR
  refine Finset.sum_congr rfl fun k _ => ?_
  have el : lidx_main_v25 (ix3 b t d) k = ix3 b t k :=
    funext fun a => Fin.ext (by match a with | ⟨0, _⟩ => rfl | ⟨1, _⟩ => rfl | ⟨2, _⟩ => rfl)
  have er : ridx_main_v25 (ix3 b t d) k = ix2 k d :=
    funext fun a => Fin.ext (by match a with | ⟨0, _⟩ => rfl | ⟨1, _⟩ => rfl)
  rw [el, er, prob_apply]

end Cert.ReferenceIdeal.RefValue

end
-- ==== Proof.Bridge.lean ====
/-
  The textbook spelling of the memory read equals the streaming spelling on real inputs.

  Every quantity is a real number: the norm floor ε is a positive real, so max(‖y‖, ε) is a positive real and
  division by it is multiplication by its reciprocal.  The two logits of row j are then the same real number
  (a finite sum rearranged).  For the weights, exp(s j - M) = exp(s j) · exp(-M) with M the row maximum (one of
  the s j, a real): the common positive factor exp(-M) cancels between the weighted sum and the total weight,
  so the shifted weighted average equals the unshifted one.  All algebra is done in ℝ and coerced once.
-/
import proofs.«169957_g74457553044435_cont_9to1_m_1141_2_alg».proof.Proof.Spec

noncomputable section

namespace Cert.MemRead

open Idealize.ShloMosaic Cert.Attn

/-! ## The constants -/

/-- The norm floor ε is a positive real number. -/
theorem eps_pos : ∃ r : ℝ, 0 < r ∧ eps = (r : EReal) := by
  unfold eps
  simp [Ideal.ofBits, Ideal.ieee, -EReal.coe_mul]

/-- The word of 1.0 is the real number 1. -/
theorem w1_eq : w1 = ((1 : ℝ) : EReal) := ofBits_one

/-- The coercion of a maximum of two reals is the maximum of the coercions. -/
theorem coe_max (a b : ℝ) : ((max a b : ℝ) : EReal) = max (a : EReal) (b : EReal) :=
  EReal.coe_strictMono.monotone.map_max

/-- The square root of a nonnegative real. -/
theorem sqrt_coe_nonneg {r : ℝ} (hr : 0 ≤ r) : Ideal.sqrt (r : EReal) = ((Real.sqrt r : ℝ) : EReal) := by
  rw [Ideal.sqrt_coe, if_neg (not_lt.mpr hr)]

variable {N D : ℕ}

/-! ## Norms of real rows -/

/-- max(‖y‖, e) for a real row y. -/
def rnrm (e : ℝ) (y : Fin D → ℝ) : ℝ := max (Real.sqrt (∑ d, y d * y d)) e

theorem rnrm_pos {e : ℝ} (he : 0 < e) (y : Fin D → ℝ) : 0 < rnrm e y := lt_max_of_lt_right he

theorem sumsq_nonneg (y : Fin D → ℝ) : 0 ≤ ∑ d, y d * y d :=
  Finset.sum_nonneg fun d _ => mul_self_nonneg (y d)

/-- The squared norm of a real row is the real squared norm. -/
theorem sumsq_coe (y : Fin D → ℝ) : sumsq (fun d => (y d : EReal)) = ((∑ d, y d * y d : ℝ) : EReal) := by
  unfold sumsq
  rw [coe_sum]
  exact Finset.sum_congr rfl fun d _ => (EReal.coe_mul _ _).symm

/-- max(‖y‖, ε) of a real row is the real max(‖y‖, e). -/
theorem nrm_coe {e : ℝ} (he : eps = (e : EReal)) (y : Fin D → ℝ) :
    nrm (fun d => (y d : EReal)) = ((rnrm e y : ℝ) : EReal) := by
  unfold nrm rnrm
  rw [sumsq_coe, sqrt_coe_nonneg (sumsq_nonneg y), he, coe_max]

/-- The same with the squared norm written as a product with a column of ones. -/
theorem nrm1_coe {e : ℝ} (he : eps = (e : EReal)) (y : Fin D → ℝ) :
    max (Ideal.sqrt (∑ d, (y d : EReal) * (y d : EReal) * w1)) eps = ((rnrm e y : ℝ) : EReal) := by
  have h : (∑ d, (y d : EReal) * (y d : EReal) * w1) = ((∑ d, y d * y d : ℝ) : EReal) := by
    rw [coe_sum, w1_eq]
    refine Finset.sum_congr rfl fun d _ => ?_
    rw [← EReal.coe_mul, ← EReal.coe_mul, mul_one]
  unfold rnrm
  rw [h, sqrt_coe_nonneg (sumsq_nonneg y), he, coe_max]

/-! ## The two logits are the same real number -/

/-- The textbook logit of row j, as a real. -/
def rlogit (e : ℝ) (x : Fin D → ℝ) (mem : Fin N → Fin D → ℝ) (st : Fin N → ℝ) (j : Fin N) : ℝ :=
  (∑ d, x d * (1 / rnrm e x) * (mem j d * (1 / rnrm e (mem j)))) * st j

theorem logitR_coe {e : ℝ} (he0 : 0 < e) (he : eps = (e : EReal)) (x : Fin D → ℝ) (mem : Fin N → Fin D → ℝ)
    (st : Fin N → ℝ) (j : Fin N) :
    logitR (fun d => (x d : EReal)) (fun j d => (mem j d : EReal)) (fun j => (st j : EReal)) j
      = ((rlogit e x mem st j : ℝ) : EReal) := by
  have hx : nrm (fun d => (x d : EReal)) = ((rnrm e x : ℝ) : EReal) := nrm_coe he x
  have hm : nrm (fun d => (mem j d : EReal)) = ((rnrm e (mem j) : ℝ) : EReal) := nrm_coe he (mem j)
  show (∑ d, Ideal.div (x d : EReal) (nrm fun d => (x d : EReal))
      * Ideal.div (mem j d : EReal) (nrm fun d => (mem j d : EReal))) * (st j : EReal) = _
  rw [hx, hm]
  simp only [Ideal.div_coe (rnrm_pos he0 x).ne', Ideal.div_coe (rnrm_pos he0 (mem j)).ne', ← EReal.coe_mul]
  rw [← coe_sum, ← EReal.coe_mul]
  rfl

/-- Rearranging the finite sum: the two spellings of the logit agree in ℝ. -/
theorem logit_real_eq (x m : Fin D → ℝ) (s a b : ℝ) :
    (∑ d, m d * (x d * (1 * (1 / a)))) * (s * (1 * (1 / b)))
      = (∑ d, x d * (1 / a) * (m d * (1 / b))) * s := by
  rw [Finset.sum_mul, Finset.sum_mul]
  exact Finset.sum_congr rfl fun d _ => by ring

theorem logitK_coe {e : ℝ} (he0 : 0 < e) (he : eps = (e : EReal)) (x : Fin D → ℝ) (mem : Fin N → Fin D → ℝ)
    (st : Fin N → ℝ) (j : Fin N) :
    logitK (fun d => (x d : EReal)) (fun j d => (mem j d : EReal)) (fun j => (st j : EReal)) j
      = ((rlogit e x mem st j : ℝ) : EReal) := by
  have hx : nrm (fun d => (x d : EReal)) = ((rnrm e x : ℝ) : EReal) := nrm_coe he x
  have hm := nrm1_coe he (mem j)
  show (∑ d, (mem j d : EReal) * ((x d : EReal) * Ideal.div w1 (nrm fun d => (x d : EReal))))
      * ((st j : EReal) * Ideal.div w1 (max (Ideal.sqrt (∑ d, (mem j d : EReal) * (mem j d : EReal) * w1)) eps)) = _
  rw [hx, hm, w1_eq]
  simp only [Ideal.div_coe (rnrm_pos he0 x).ne', Ideal.div_coe (rnrm_pos he0 (mem j)).ne', ← EReal.coe_mul]
  rw [← coe_sum, ← EReal.coe_mul, logit_real_eq]
  rfl

/-! ## The shift by the row maximum cancels -/

/-- In ℝ: a common factor exp(-c) of all weights cancels in the weighted average. -/
theorem shift_cancel {n : ℕ} (s u : Fin n → ℝ) (c : ℝ) (hB : (∑ j, Real.exp (s j)) ≠ 0) :
    (∑ j, Real.exp (s j - c) * u j) * (1 / ∑ j, Real.exp (s j - c))
      = (∑ j, Real.exp (s j) * u j) * (1 / ∑ j, Real.exp (s j)) := by
  have h1 : ∀ j, Real.exp (s j - c) = Real.exp (s j) * Real.exp (-c) := fun j => by
    rw [sub_eq_add_neg, Real.exp_add]
  have hk : Real.exp (-c) ≠ 0 := (Real.exp_pos _).ne'
  have e1 : (∑ j, Real.exp (s j) * Real.exp (-c) * u j) = (∑ j, Real.exp (s j) * u j) * Real.exp (-c) := by
    rw [Finset.sum_mul]
    exact Finset.sum_congr rfl fun j _ => by ring
  simp only [h1]
  rw [e1, ← Finset.sum_mul]
  field_simp

/-- Over real scores and values the shifted weighted average is the unshifted one. -/
theorem avgK_coe {n : ℕ} (hn : 0 < n) (s u : Fin n → ℝ) :
    avgK (fun j => (s j : EReal)) (fun j => (u j : EReal))
      = Ideal.div (∑ j, Ideal.exp (s j : EReal) * (u j : EReal)) (∑ j, Ideal.exp (s j : EReal)) := by
  obtain ⟨j0, hM⟩ := rowMax_coe hn s
  have hwt : ∀ j, wt (fun j => (s j : EReal)) j = ((Real.exp (s j - s j0) : ℝ) : EReal) := fun j => by
    unfold wt; rw [hM, ← EReal.coe_sub, Ideal.exp_coe]
  have hl : (∑ j, Real.exp (s j - s j0)) ≠ 0 :=
    ne_of_gt (Finset.sum_pos (fun j _ => Real.exp_pos _) ⟨⟨0, hn⟩, Finset.mem_univ _⟩)
  have hB : (∑ j, Real.exp (s j)) ≠ 0 :=
    ne_of_gt (Finset.sum_pos (fun j _ => Real.exp_pos _) ⟨⟨0, hn⟩, Finset.mem_univ _⟩)
  unfold avgK
  simp only [hwt, Ideal.exp_coe, ← EReal.coe_mul]
  rw [← coe_sum, ← coe_sum, ← coe_sum, ← coe_sum, Ideal.div_coe hl, Ideal.div_coe hB, ← EReal.coe_mul,
    ← EReal.coe_mul, shift_cancel s u (s j0) hB]

/-! ## The bridge -/

/-- On real inputs the textbook spelling and the streaming spelling of the memory read agree. -/
theorem outR_eq_outK {N D : ℕ} (hN : 0 < N) (x : Fin D → EReal) (mem : Fin N → Fin D → EReal) (st : Fin N → EReal)
    (hx : ∀ d, Cert.Attn.IsReal (x d)) (hm : ∀ j d, Cert.Attn.IsReal (mem j d)) (hs : ∀ j, Cert.Attn.IsReal (st j))
    (d : Fin D) : outR x mem st d = outK x mem st d := by
  obtain ⟨e, he0, he⟩ := eps_pos
  choose xr hxr using hx
  choose mr hmr using hm
  choose sr hsr using hs
  obtain rfl : x = fun d => (xr d : EReal) := funext hxr
  obtain rfl : mem = fun j d => (mr j d : EReal) := funext fun j => funext (hmr j)
  obtain rfl : st = fun j => (sr j : EReal) := funext hsr
  have hR : logitR (fun d => (xr d : EReal)) (fun j d => (mr j d : EReal)) (fun j => (sr j : EReal))
      = fun j => ((rlogit e xr mr sr j : ℝ) : EReal) := funext fun j => logitR_coe he0 he xr mr sr j
  have hK : ∀ j, logitK (fun d => (xr d : EReal)) (fun j d => (mr j d : EReal)) (fun j => (sr j : EReal)) j
      = ((rlogit e xr mr sr j : ℝ) : EReal) := fun j => logitK_coe he0 he xr mr sr j
  unfold outR
  rw [hR, avgR_eq_avgK hN _ _ (fun j => ⟨_, rfl⟩) (fun j => ⟨_, rfl⟩), avgK_coe hN]
  unfold outK wK
  simp only [hK]

end Cert.MemRead

end
-- ==== Proof.Finite.lean ====
/-
  Finite inputs are real numbers.

  The precondition says of each of the three argument arrays that every entry x satisfies |x| < +∞, the three
  statements joined by "and".  On the extended reals |x| = max x (-x), which is +∞ at both infinities, so an entry
  that satisfies the comparison is neither of them: it is a real number.
-/
import proofs.«169957_g74457553044435_cont_9to1_m_1141_2_alg».proof.Pre_finite_inputs
import Idealize.ShloMosaic.Lib.ReduceAll
import Idealize.ShloMosaic.Lib.ValueIdx
import Idealize.ShloMosaic.PureOps.Ideal.Laws
import proofs.«169957_g74457553044435_cont_9to1_m_1141_2_alg».proof.Proof.LibSoftmaxAverage

noncomputable section

namespace Cert.Pre_finite_inputs.Real

open Idealize.ShloMosaic Idealize.ShloMosaic.ValueIdx Cert.Pre_finite_inputs Cert.Attn

/-- The scalar shape has one index. -/
instance : Subsingleton S_.Idx := ⟨fun a b => funext fun d => d.elim0⟩

/-- The word `0x7F800000` is +∞. -/
theorem ofBits_posInf : Ideal.ofBits .f32 0x7F800000#32 = ⊤ := by
  simp [Ideal.ofBits, Ideal.ieee]

/-- An extended real whose absolute value max x (-x) is below +∞ is a real number. -/
theorem isReal_of_abs_lt_top (x : EReal) (h : max x (-x) < ⊤) : IsReal x := by
  induction x using EReal.rec with
  | bot => simp at h
  | coe r => exact ⟨r, rfl⟩
  | top => simp at h

/-- The precondition's element test, read back: the comparison |x| < +∞ came out true, so x is real. -/
theorem isReal_of_test (x : EReal)
    (h : FloatOps.cmpf (F := Ideal) (φ := .f32) .olt (FloatOps.hostAbsf (F := Ideal) (φ := .f32) x)
      (Ideal.ofBits .f32 0x7F800000#32) = 1#1) : IsReal x := by
  rw [ofBits_posInf, Ideal.cmpf_def, Ideal.hostAbsf_def, Ideal.absf_def] at h
  refine isReal_of_abs_lt_top x ?_
  by_contra hn
  simp [Ideal.cmp, hn] at h

variable [Cert.Pre_finite_inputs.Facts]

/-- Under the precondition every entry of the three argument arrays is a real number. -/
theorem real_of_pre (a0 : FVec Ideal S8x4x64 .f32) (a1 : FVec Ideal S1048576x64 .f32) (a2 : FVec Ideal S1048576 .f32)
    (h : Cert.Pre_finite_inputs.fn (F := Ideal) a0 a1 a2 = fun _ => 1#1) :
    (∀ i, IsReal (a0 i)) ∧ (∀ i, IsReal (a1 i)) ∧ (∀ i, IsReal (a2 i)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact isReal_of_test (a0 i) (Host.reduce_andi_all _ _ _ _ _ h0' i)
  · exact isReal_of_test (a1 i) (Host.reduce_andi_all _ _ _ _ _ h1 i)
  · exact isReal_of_test (a2 i) (Host.reduce_andi_all _ _ _ _ _ h2 i)

end Cert.Pre_finite_inputs.Real

end
-- ==== Proof.lean ====
/-
  The streaming memory read against its textbook reference, on the extended reals.

  The kernel reads 32 query rows (an [8, 4, 64] array regrouped as [32, 64]) against a memory bank of 1048576 rows
  of width 64 in 256 blocks of 4096 rows: it scales the queries by 1 / max(‖q‖, ε), gives every memory row the factor
  strength · 1 / max(‖row‖, ε), exponentiates the scaled inner products WITHOUT subtracting a row maximum, and carries
  two accumulators across the blocks — the sums of the weights and the sums of the weights times the memory rows —
  whose quotient it stores after the last block. The reference normalises both sides entry by entry, takes the inner
  products times the strengths, applies the softmax with the row maximum subtracted and multiplies by the memory.

  Under the precondition every input entry is a real number, so every norm floor max(‖·‖, ε) is a positive real, both
  logits are the same real number, every weight is a positive real, and the common factor exp(-rowMax) cancels in the
  quotient of the two sums: the two results agree entry by entry. The sums over the 256·4096 rows are regrouped block
  by block on the kernel's side; on the extended reals addition is commutative and associative, so the order in which
  the accumulators grow does not matter.
-/
import proofs.«169957_g74457553044435_cont_9to1_m_1141_2_alg».proof.Defs
import proofs.«169957_g74457553044435_cont_9to1_m_1141_2_alg».proof.Proof.Gen.Kernel
import proofs.«169957_g74457553044435_cont_9to1_m_1141_2_alg».proof.Proof.Gen.Kernel.Skeleton
import proofs.«169957_g74457553044435_cont_9to1_m_1141_2_alg».proof.Proof.Gen.Kernel.Launch
import proofs.«169957_g74457553044435_cont_9to1_m_1141_2_alg».proof.Proof.Gen.Kernel.Points
import proofs.«169957_g74457553044435_cont_9to1_m_1141_2_alg».proof.Proof.Gen.Kernel.Frame
import proofs.«169957_g74457553044435_cont_9to1_m_1141_2_alg».proof.Proof.Gen.KernelIdeal
import proofs.«169957_g74457553044435_cont_9to1_m_1141_2_alg».proof.Proof.Gen.KernelIdeal.Skeleton
import proofs.«169957_g74457553044435_cont_9to1_m_1141_2_alg».proof.Proof.Gen.KernelIdeal.Launch
import proofs.«169957_g74457553044435_cont_9to1_m_1141_2_alg».proof.Proof.Gen.KernelIdeal.Points
import proofs.«169957_g74457553044435_cont_9to1_m_1141_2_alg».proof.Proof.Gen.KernelIdeal.Frame
import proofs.«169957_g74457553044435_cont_9to1_m_1141_2_alg».proof.Proof.Gen.ReferenceIdeal
import proofs.«169957_g74457553044435_cont_9to1_m_1141_2_alg».proof.Proof.Gen.Pre_finite_inputs
import proofs.«169957_g74457553044435_cont_9to1_m_1141_2_alg».proof.Proof.Gen.ReferenceIdeal.Run
import proofs.«169957_g74457553044435_cont_9to1_m_1141_2_alg».proof.Proof.Gen.ReferenceIdeal.Read
import proofs.«169957_g74457553044435_cont_9to1_m_1141_2_alg».proof.Proof.KFinal
import proofs.«169957_g74457553044435_cont_9to1_m_1141_2_alg».proof.Proof.RefRead
import proofs.«169957_g74457553044435_cont_9to1_m_1141_2_alg».proof.Proof.Bridge
import proofs.«169957_g74457553044435_cont_9to1_m_1141_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- On real inputs the reference's result array is the kernel's: entry (s, u, e) of both is the memory read of query
    row (s, u), column e — the textbook spelling on the reference's side, the streaming one on the kernel's. -/
theorem result_eq (m : (ℓ : Loc Cert.KernelIdeal.nD Cert.KernelIdeal.τ Cert.KernelIdeal.sig) → Buf (Elt Ideal) ℓ) (c : Dev Cert.KernelIdeal.nD)
    (hp : Cert.Pre_finite_inputs.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) = fun _ => 1#1) :
    Cert.ReferenceIdeal.Read.val_main_v25 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Kv.res3 m c := by
  obtain ⟨h0, h1, h2⟩ := Cert.Pre_finite_inputs.Real.real_of_pre _ _ _ hp
  funext i
  obtain ⟨s, u, e, rfl⟩ : ∃ (s : Fin 8) (u : Fin 4) (e : Fin 64), i = ix3 s u e := ⟨i 0, i 1, i 2, eq_ix3 i⟩
  refine (Cert.ReferenceIdeal.RefValue.ref_apply _ _ _ s u e).trans ?_
  refine Eq.trans ?_ (Cert.KernelIdeal.Kv.res3_apply m c s u e).symm
  exact Cert.MemRead.outR_eq_outK (N := 1048576) (by norm_num) _ _ _ (fun d => h0 _) (fun j d => h1 _) (fun j => h2 _) e

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs run, the kernel's result array ends at the regrouped streaming result and the reference's at
    its composed term of arguments that agree; under the precondition they are one array. -/
theorem algebraic : Cert.algebraic_KernelIdeal_ReferenceIdeal := by
  intro m ρ m' ρ' hpre hagree
  refine ⟨fun c => Cert.KernelIdeal.Kv.res3 m c, Cert.KernelIdeal.Kv.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2]
  exact result_eq m c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
